-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_

variable [Facts]

def fn_part1 {F : FTy → Type} [FloatOps F] (main_arg6 : FVec F S128x128 .f32) (main_arg7 : FVec F S128x128 .f32) (main_arg8 : FVec F S128x40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x40 .f32 := Host.absf main_arg8
  let main_cst_10 : FVec F S_ .f32 := constant S_ .f32 0x7F800000#32
  let main_v30 : FVec F S128x40 .f32 := broadcastInDim S128x40 ![] bcast_S_S128x40 main_cst_10
  let main_v31 : IVec S128x40 1 := cmpf .olt main_v29 main_v30
  let main_c_11 : IVec S_ 1 := constantI S_ 1 1#1
  let main_v32 : IVec S_ 1 := (fun x v => Host.reduce IntOp.andi x v reducesTo_S128x40_S_d0_1 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128x128 .f32) (main_arg7 : FVec F S128x128 .f32) (main_arg8 : FVec F S128x40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x40 : Shape := ⟨2, ![1, 40]⟩
abbrev S5000x128 : Shape := ⟨2, ![5000, 128]⟩
abbrev S1700000x128 : Shape := ⟨2, ![1700000, 128]⟩
abbrev S100000x40 : Shape := ⟨2, ![100000, 40]⟩
abbrev S5000x40 : Shape := ⟨2, ![5000, 40]⟩
abbrev S1700000x40 : Shape := ⟨2, ![1700000, 40]⟩

abbrev nBuf : Space → Nat
  | .hbm => 115
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x40, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S1700000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S1700000, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S_, .f32⟩
  | .hbm, ⟨42, _⟩ => ⟨S1x40, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x128, .f32⟩
  | .hbm, ⟨72, _⟩ => ⟨S1700000x1, .f32⟩
  | .hbm, ⟨73, _⟩ => ⟨S1700000x128, .f32⟩
  | .hbm, ⟨74, _⟩ => ⟨S1700000x128, .f32⟩
  | .hbm, ⟨75, _⟩ => ⟨S_, .f32⟩
  | .hbm, ⟨76, _⟩ => ⟨S100000x128, .f32⟩
  | .hbm, ⟨77, _⟩ => ⟨S1700000x1, .i32⟩
  | .hbm, ⟨78, _⟩ => ⟨S100000x128, .f32⟩
  | .hbm, ⟨79, _⟩ => ⟨S100000x128, .f32⟩
  | .hbm, ⟨80, _⟩ => ⟨S100000x128, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x1, .f32⟩
  | .hbm, ⟨91, _⟩ => ⟨S1700000x128, .f32⟩
  | .hbm, ⟨92, _⟩ => ⟨S1700000x128, .f32⟩
  | .hbm, ⟨93, _⟩ => ⟨S_, .f32⟩
  | .hbm, ⟨94, _⟩ => ⟨S100000x128, .f32⟩
  | .hbm, ⟨95, _⟩ => ⟨S1700000x1, .i32⟩
  | .hbm, ⟨96, _⟩ => ⟨S100000x128, .f32⟩
  | .hbm, ⟨97, _⟩ => ⟨S100000x128, .f32⟩
  | .hbm, ⟨98, _⟩ => ⟨S100000x40, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x40, .f32⟩
  | .hbm, ⟨108, _⟩ => ⟨S1700000x1, .f32⟩
  | .hbm, ⟨109, _⟩ => ⟨S1700000x40, .f32⟩
  | .hbm, ⟨110, _⟩ => ⟨S1700000x40, .f32⟩
  | .hbm, ⟨111, _⟩ => ⟨S_, .f32⟩
  | .hbm, ⟨112, _⟩ => ⟨S100000x40, .f32⟩
  | .hbm, ⟨113, _⟩ => ⟨S1700000x1, .i32⟩
  | .hbm, ⟨114, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S128x40, .f32⟩
  | .local _ .vmem, ⟨45, _⟩ => ⟨S1x40, .f32⟩
  | .local _ .vmem, ⟨46, _⟩ => ⟨S5000x40, .f32⟩
  | .local _ .vmem, ⟨47, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_c_10 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_c_12 : Ref sig .tc := ⟨.hbm, 81, rfl⟩
abbrev main_v58 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_14 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_15 : Ref sig .tc := ⟨.hbm, 99, rfl⟩
abbrev main_v73 : Ref sig .tc := ⟨.hbm, 100, rfl⟩
abbrev main_v74 : Ref sig .tc := ⟨.hbm, 101, rfl⟩
abbrev main_c_16 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem2_1 : DmaSem sig := 41
abbrev cc7_sem0_0 : DmaSem sig := 42
abbrev cc7_sem0_1 : DmaSem sig := 43
abbrev cc7_sem1_0 : DmaSem sig := 44
abbrev cc7_sem2_0 : DmaSem sig := 45
abbrev cc7_sem3_0 : DmaSem sig := 46
abbrev cc7_sem3_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S5000x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x40 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x40 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S128_S1x128 : S128.ShapeCasts S1x128
  bcast_S_S1x128 : S_.BroadcastsInDim S1x128 (![] : Fin 0 → Fin S1x128.rank)
  bcast_S_S1x40 : S_.BroadcastsInDim S1x40 (![] : Fin 0 → Fin S1x40.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x40_S5000x40_1_0_0_1_n_n_wf : DotDims.WF S5000x128 S128x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x128.size a ≤ S100000x128.size a
  hwx6_2 : ∀ i : grid6.Coords, EltTy.bits .f32 = 32 ∨ (Rect.block (s := S100000x128) S5000x128.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x40.size a ≤ S128x40.size a
  hwx7_1 : ∀ i : grid7.Coords, EltTy.bits .f32 = 32 ∨ (Rect.block (s := S128x40) S128x40.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x40.size a ≤ S1x40.size a
  hwx7_2 : ∀ i : grid7.Coords, EltTy.bits .f32 = 32 ∨ (Rect.block (s := S1x40) S1x40.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x40.size a ≤ S100000x40.size a
  hwx7_3 : ∀ i : grid7.Coords, EltTy.bits .f32 = 32 ∨ (Rect.block (s := S100000x40) S5000x40.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v27) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v40) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v41) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v42) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v55) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v56) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v56) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v24) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v70) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v26) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v71) S5000x128.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v71) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg8) S128x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v25) S1x40.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v72) S5000x40.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1700000x128 : Shape := ⟨2, ![1700000, 128]⟩
abbrev S100000x40 : Shape := ⟨2, ![100000, 40]⟩
abbrev S1700000x40 : Shape := ⟨2, ![1700000, 40]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x40, .f32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .i32⟩
  | .hbm, ⟨19, _⟩ => ⟨S1700000, .i32⟩
  | .hbm, ⟨20, _⟩ => ⟨S1700000, .i1⟩
  | .hbm, ⟨21, _⟩ => ⟨S_, .i32⟩
  | .hbm, ⟨22, _⟩ => ⟨S1700000, .i32⟩
  | .hbm, ⟨23, _⟩ => ⟨S1700000, .i32⟩
  | .hbm, ⟨24, _⟩ => ⟨S1700000, .i32⟩
  | .hbm, ⟨25, _⟩ => ⟨S1700000x1, .i32⟩
  | .hbm, ⟨26, _⟩ => ⟨S1700000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S1700000, .f32⟩
  | .hbm, ⟨37, _⟩ => ⟨S1700000, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S_, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S1700000x128, .f32⟩
  | .hbm, ⟨73, _⟩ => ⟨S1700000x1, .f32⟩
  | .hbm, ⟨74, _⟩ => ⟨S1700000x128, .f32⟩
  | .hbm, ⟨75, _⟩ => ⟨S1700000x128, .f32⟩
  | .hbm, ⟨76, _⟩ => ⟨S_, .f32⟩
  | .hbm, ⟨77, _⟩ => ⟨S100000x128, .f32⟩
  | .hbm, ⟨78, _⟩ => ⟨S1700000x1, .i32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S100000x128, .f32⟩
  | .hbm, ⟨84, _⟩ => ⟨S100000x128, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x128, .f32⟩
  | .hbm, ⟨94, _⟩ => ⟨S1700000x1, .f32⟩
  | .hbm, ⟨95, _⟩ => ⟨S1700000x128, .f32⟩
  | .hbm, ⟨96, _⟩ => ⟨S1700000x128, .f32⟩
  | .hbm, ⟨97, _⟩ => ⟨S_, .f32⟩
  | .hbm, ⟨98, _⟩ => ⟨S100000x128, .f32⟩
  | .hbm, ⟨99, _⟩ => ⟨S1700000x1, .i32⟩
  | .hbm, ⟨100, _⟩ => ⟨S100000x128, .f32⟩
  | .hbm, ⟨101, _⟩ => ⟨S_, .f32⟩
  | .hbm, ⟨102, _⟩ => ⟨S100000x128, .f32⟩
  | .hbm, ⟨103, _⟩ => ⟨S100000x128, .f32⟩
  | .hbm, ⟨104, _⟩ => ⟨S100000x128, .f32⟩
  | .hbm, ⟨105, _⟩ => ⟨S100000x40, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x40, .f32⟩
  | .hbm, ⟨115, _⟩ => ⟨S1700000x1, .f32⟩
  | .hbm, ⟨116, _⟩ => ⟨S1700000x40, .f32⟩
  | .hbm, ⟨117, _⟩ => ⟨S1700000x40, .f32⟩
  | .hbm, ⟨118, _⟩ => ⟨S_, .f32⟩
  | .hbm, ⟨119, _⟩ => ⟨S100000x40, .f32⟩
  | .hbm, ⟨120, _⟩ => ⟨S1700000x1, .i32⟩
  | .hbm, ⟨121, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_c_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_call0_cst : Ref sig .tc := ⟨.hbm, 59, rfl⟩
abbrev main_call0_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call1_cst : Ref sig .tc := ⟨.hbm, 80, rfl⟩
abbrev main_call1_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_c_10 : Ref sig .tc := ⟨.hbm, 85, rfl⟩
abbrev main_v60 : Ref sig .tc := ⟨.hbm, 86, rfl⟩
abbrev main_v61 : Ref sig .tc := ⟨.hbm, 87, rfl⟩
abbrev main_c_11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_12 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_call2_cst : Ref sig .tc := ⟨.hbm, 101, rfl⟩
abbrev main_call2_v0 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_13 : Ref sig .tc := ⟨.hbm, 106, rfl⟩
abbrev main_v76 : Ref sig .tc := ⟨.hbm, 107, rfl⟩
abbrev main_v77 : Ref sig .tc := ⟨.hbm, 108, rfl⟩
abbrev main_c_14 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_cst_15 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The kernel program's run with its RESULT named.

  @main is thirteen segments: five stretches of host operations and eight regions.  The buffer contents at each
  segment boundary are a fold from the launch memory (W0 … W13): a stretch applies its operations, a region
  replaces its result array by what its write-backs leave and keeps every other buffer.  Every weakly fair execution
  ends with every unscoped buffer at the last boundary's contents W13; read at the result buffer this names the
  result, read at an argument it is the launch contents.  The launch over the segments is the frame's; only the
  final reading is stronger (the result buffer is read too).
-/
import proofs.«131371_j64665027609332_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument arrays as launched. -/
theorem run_result : θ_run defs (onTc (τ := τ) (main (F := F))) ⟨m, fun _ => 0, ρ⟩ (fun r => ∀ c : Dev nD,
      r.2.mem ((c.tc : Thread nD τ).loc main_v85) = W13 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v85 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c)⟩)

end Cert.KernelIdeal.Run

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibHostLayout.lean ====
/-
  Two host re-layings read at one entry, over any sizes and any element type.

  * A matrix transposed: the result at (i, j) is the matrix at (j, i).
  * A vector of N entries laid as a row [1, N] and then down M rows, by two `broadcast_in_dim`s: the result at (r, c)
    is entry c.
  * A rank-zero value broadcast to a matrix: every entry is the value.
-/
import Idealize.ShloMosaic.Lib.Pipeline.Value
import Idealize.ShloMosaic.Lib.ValueIdx

noncomputable section

namespace Cert.HostLayout

open Idealize.ShloMosaic Idealize.ShloMosaic.ValueIdx

/-- A transposed matrix at (i, j) is the matrix at (j, i). -/
theorem transpose2_apply {α : Type} {a b : ℕ} (x : (⟨2, ![a, b]⟩ : Shape).Idx → α)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h (ix2 i j) (ix2 j i) fun q => ?_
  match q with
  | ⟨0, _⟩ => rfl
  | ⟨1, _⟩ => rfl

/-- A vector laid as a row and then down M rows reads, at (r, c), entry c. -/
theorem biasRow_apply {α : Type} {M N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 v) (ix2 r c) = v (ix1 c) := by
  refine (broadcastInDim_apply _ h2 _ (ix2 r c) (ix2 (0 : Fin 1) c) fun a => ?_).trans
    (broadcastInDim_apply _ h1 v (ix2 (0 : Fin 1) c) (ix1 c) fun a => ?_)
  · match a with
    | ⟨0, _⟩ => show (0 : Fin 1).val = if (1 : Nat) = 1 then 0 else r.val; rw [if_pos rfl]; rfl
    | ⟨1, _⟩ =>
      show c.val = if N = 1 then 0 else c.val
      split
      · have := c.isLt; omega
      · rfl
  · match a with
    | ⟨0, _⟩ =>
      show c.val = if N = 1 then 0 else c.val
      split
      · have := c.isLt; omega
      · rfl

/-- A rank-zero value broadcast to any shape reads the value everywhere. -/
theorem scalar_apply {α : Type} {t : Shape} (u : (⟨0, ![]⟩ : Shape).Idx → α)
    (h : (⟨0, ![]⟩ : Shape).BroadcastsInDim t ![]) (i : t.Idx) :
    broadcastInDim t ![] h u i = u (fun a => a.elim0) :=
  broadcastInDim_apply ![] h u i (fun a => a.elim0) (fun a => a.elim0)

end Cert.HostLayout

end
-- ==== Proof.LibBlockRows.lean ====
/-
  Picking rows out of a matrix, and the layers of a dense graph network read on the picked rows.

  A map ρ from the row numbers of a small matrix to the row numbers of a tall one lays rows ρ 0, ρ 1, … of the
  tall matrix as a matrix of its own (`rowsOf`). Every layer below acts on each row separately, so computing the
  layer on the picked rows gives the picked rows of the layer computed on the whole matrix:

  * a product with a fixed right factor, Σ_k A (r, k) · G (k, c): the matrix unit's product into a zero
    accumulator on the picked rows against the host's plain product on the whole;
  * a bias, one vector of N numbers added to every row: the vector laid as a row and broadcast down the picked
    rows against two host broadcasts down all rows;
  * the entry-by-entry operations (sum, product, maximum, exponential) and a constant splat.

  Everything is on the extended reals, where a change of float format is the identity, so an operand may first
  have been converted to a narrower format.
-/
import Idealize.ShloMosaic.PureOps.Ideal.Laws
import Idealize.ShloMosaic.Lib.Pipeline.Value
import Idealize.ShloMosaic.Lib.ValueIdx
import Idealize.ShloMosaic.Lib.ValueLayout
import proofs.«131371_j64665027609332_1_alg».proof.Proof.LibPlainMatmul
import proofs.«131371_j64665027609332_1_alg».proof.Proof.LibHostReads
import proofs.«131371_j64665027609332_1_alg».proof.Proof.LibHostLayout

noncomputable section

open scoped BigOperators

namespace Cert.BlockRows

open Idealize.ShloMosaic Idealize.ShloMosaic.ValueIdx

variable {TM M K N : Nat}

/-- Rows ρ 0, ρ 1, … of an M-row matrix, laid as a TM-row matrix. -/
def rowsOf {α : Type} (ρ : Fin TM → Fin M) (X : (⟨2, ![M, K]⟩ : Shape).Idx → α) : (⟨2, ![TM, K]⟩ : Shape).Idx → α :=
  fun j => X (ix2 (ρ (j 0)) (j 1))

/-- Entry (p, k) of the picked rows is entry (ρ p, k) of the matrix. -/
theorem rowsOf_apply {α : Type} (ρ : Fin TM → Fin M) (X : (⟨2, ![M, K]⟩ : Shape).Idx → α) (p : Fin TM) (k : Fin K) :
    rowsOf ρ X (ix2 p k) = X (ix2 (ρ p) k) := rfl

/-- Picking every row in place changes nothing. -/
theorem rowsOf_id {α : Type} (X : (⟨2, ![M, K]⟩ : Shape).Idx → α) : rowsOf (fun p : Fin M => p) X = X := by
  funext j
  exact congrArg X (eq_ix2 j).symm

/-- Row p of block t when M rows are cut into n blocks of TM rows each: row TM · t + p. -/
def blockRow (TM n M : Nat) (h : TM * n ≤ M) (t : Fin n) : Fin TM → Fin M := fun p =>
  ⟨TM * t.val + p.val, by
    have ht := t.isLt
    have hp := p.isLt
    calc TM * t.val + p.val < TM * t.val + TM := by omega
      _ = TM * (t.val + 1) := by rw [Nat.mul_succ]
      _ ≤ TM * n := Nat.mul_le_mul_left _ (by omega)
      _ ≤ M := h⟩

/-- Its row number. -/
theorem blockRow_val (TM n M : Nat) (h : TM * n ≤ M) (t : Fin n) (p : Fin TM) :
    (blockRow TM n M h t p).val = TM * t.val + p.val := rfl

/-- A sum of picked rows is the picked rows of the sum. -/
theorem addf_rows {φ : FTy} (ρ : Fin TM → Fin M) (X Y : FVec Ideal ⟨2, ![M, N]⟩ φ) :
    addf (rowsOf ρ X) (rowsOf ρ Y) = rowsOf ρ (addf X Y) := rfl

/-- A product, entry by entry, of picked rows is the picked rows of the product. -/
theorem mulf_rows {φ : FTy} (ρ : Fin TM → Fin M) (X Y : FVec Ideal ⟨2, ![M, N]⟩ φ) :
    mulf (rowsOf ρ X) (rowsOf ρ Y) = rowsOf ρ (mulf X Y) := rfl

/-- The exponential of picked rows is the picked rows of the host's exponential: one function on the extended reals. -/
theorem exp_rows {φ : FTy} (ρ : Fin TM → Fin M) (X : FVec Ideal ⟨2, ![M, N]⟩ φ) :
    exp (rowsOf ρ X) = rowsOf ρ (Host.exp X) := rfl

/-- The host's plain product of an M × K by a K × N matrix. -/
def propagate (A : FVec Ideal ⟨2, ![M, K]⟩ .f32) (G : FVec Ideal ⟨2, ![K, N]⟩ .f32) : FVec Ideal ⟨2, ![M, N]⟩ .f32 :=
  Host.dotGeneral (F := Ideal) (DotDims.plain M K N) none A G

/-- The host's dense layer: the plain product X · W plus the one row B added to every row. -/
def dense (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral (F := Ideal) (DotDims.plain M K N) none X W) (broadcastInDim ⟨2, ![M, N]⟩ ![0, 1] h2 B)

/-- The host's maximum with zero, the zero a rank-zero constant broadcast to the matrix. -/
def relu (h0 : (⟨0, ![]⟩ : Shape).BroadcastsInDim ⟨2, ![M, N]⟩ ![]) (Y : FVec Ideal ⟨2, ![M, N]⟩ .f32) :
    FVec Ideal ⟨2, ![M, N]⟩ .f32 :=
  maximumf Y (broadcastInDim ⟨2, ![M, N]⟩ ![] h0 (constant (F := Ideal) ⟨0, ![]⟩ .f32 0x00000000#32))

/-- The host's product with a constant, the constant of word `w` broadcast from rank zero. -/
def scaled (w : BitVec 32) (h0 : (⟨0, ![]⟩ : Shape).BroadcastsInDim ⟨2, ![M, N]⟩ ![]) (Y : FVec Ideal ⟨2, ![M, N]⟩ .f32) :
    FVec Ideal ⟨2, ![M, N]⟩ .f32 :=
  mulf (broadcastInDim ⟨2, ![M, N]⟩ ![] h0 (constant (F := Ideal) ⟨0, ![]⟩ .f32 w)) Y

/-- The product with a fixed right factor, row by row: when row p of `a` is row ρ p of `A` and `g` is `G`, the
    matrix unit's product of `a` and `g` into zeros is the picked rows of the host's product of `A` and `G`. -/
theorem matmul_rows (ρ : Fin TM → Fin M) {φ₁ φ₂ : FTy} (prec prec' : Option ContractPrecision)
    (a : FVec Ideal ⟨2, ![TM, K]⟩ φ₁) (g : FVec Ideal ⟨2, ![K, N]⟩ φ₂)
    (A : FVec Ideal ⟨2, ![M, K]⟩ .f32) (G : FVec Ideal ⟨2, ![K, N]⟩ .f32)
    (ha : ∀ (p : Fin TM) (k : Fin K), (a (ix2 p k) : EReal) = A (ix2 (ρ p) k))
    (hg : ∀ (k : Fin K) (n : Fin N), (g (ix2 k n) : EReal) = G (ix2 k n)) :
    matmul (DotDims.plain TM K N) prec a g (constant ⟨2, ![TM, N]⟩ .f32 0x00000000#32)
      = rowsOf ρ (Host.dotGeneral (F := Ideal) (DotDims.plain M K N) prec' A G) := by
  funext j
  obtain ⟨p, c, rfl⟩ : ∃ (p : Fin TM) (c : Fin N), j = ix2 p c := ⟨j 0, j 1, eq_ix2 j⟩
  rw [rowsOf_apply, Cert.LibHostReads.dotGeneral_plain_apply]
  refine (Cert.PlainMatmul.matmul_zero_apply TM K N prec a g p c).trans ?_
  exact Finset.sum_congr rfl fun k _ => congrArg₂ (· * ·) (ha p k) (hg k c)

/-- The propagation step on picked rows: the matrix unit's product, into zeros, of the picked rows of A and the
    whole of G — both first converted to a narrower float format, which changes nothing on the extended reals — is
    the picked rows of the host's product A · G. -/
theorem propagate_rows (ρ : Fin TM → Fin M) {ψ : FTy} (hψ : ψ.bits < FTy.f32.bits)
    (hs : (⟨2, ![K, N]⟩ : Shape).ShapeCasts ⟨2, ![K, N]⟩)
    (A : FVec Ideal ⟨2, ![M, K]⟩ .f32) (G : FVec Ideal ⟨2, ![K, N]⟩ .f32) :
    matmul (DotDims.plain TM K N) none (truncf ψ (rowsOf ρ A) hψ) (truncf ψ (shapeCast ⟨2, ![K, N]⟩ G hs) hψ)
        (constant ⟨2, ![TM, N]⟩ .f32 0x00000000#32)
      = rowsOf ρ (propagate A G) := by
  rw [shapeCast_self]
  exact matmul_rows ρ none none _ _ A G (fun _ _ => rfl) (fun _ _ => rfl)

/-- A dense layer on picked rows: the matrix unit's product of the picked rows of X and the whole of W into zeros,
    plus the row B broadcast down the picked rows, is the picked rows of the host's layer on X. -/
theorem dense_rows (ρ : Fin TM → Fin M)
    (hsw : (⟨2, ![K, N]⟩ : Shape).ShapeCasts ⟨2, ![K, N]⟩) (hs : (⟨2, ![1, N]⟩ : Shape).ShapeCasts ⟨2, ![1, N]⟩)
    (hb : (⟨2, ![1, N]⟩ : Shape).Broadcasts ⟨2, ![TM, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    addf (matmul (DotDims.plain TM K N) none (rowsOf ρ X) (shapeCast ⟨2, ![K, N]⟩ W hsw)
          (constant ⟨2, ![TM, N]⟩ .f32 0x00000000#32))
        (broadcastTo ⟨2, ![TM, N]⟩ (shapeCast ⟨2, ![1, N]⟩ B hs) hb)
      = rowsOf ρ (dense h2 X W B) := by
  rw [shapeCast_self, shapeCast_self, matmul_rows ρ none none (rowsOf ρ X) W X W (fun _ _ => rfl) (fun _ _ => rfl)]
  unfold dense
  rw [← addf_rows]
  refine congrArg (addf (rowsOf ρ (Host.dotGeneral (F := Ideal) (DotDims.plain M K N) none X W))) ?_
  funext j
  obtain ⟨p, c, rfl⟩ : ∃ (p : Fin TM) (c : Fin N), j = ix2 p c := ⟨j 0, j 1, eq_ix2 j⟩
  rw [broadcastTo_1b_ab_apply, rowsOf_apply]
  refine (broadcastInDim_apply _ h2 B (ix2 (ρ p) c) (ix2 (0 : Fin 1) c) fun a => ?_).symm
  match a with
  | ⟨0, _⟩ => show (0 : Fin 1).val = if (1 : Nat) = 1 then 0 else (ρ p).val; rw [if_pos rfl]; rfl
  | ⟨1, _⟩ =>
    show c.val = if N = 1 then 0 else c.val
    split
    · have := c.isLt; omega
    · rfl

/-- A vector of N numbers reshaped to one row is the same vector broadcast into a row along its one axis. -/
theorem reshape_row {α : Type} (v : (⟨1, ![N]⟩ : Shape).Idx → α) (hs : (⟨1, ![N]⟩ : Shape).ShapeCasts ⟨2, ![1, N]⟩)
    (h1 : (⟨1, ![N]⟩ : Shape).BroadcastsInDim ⟨2, ![1, N]⟩ ![1]) :
    shapeCast ⟨2, ![1, N]⟩ v hs = broadcastInDim ⟨2, ![1, N]⟩ ![1] h1 v := by
  funext i
  obtain ⟨z, c, rfl⟩ : ∃ (z : Fin 1) (c : Fin N), i = ix2 z c := ⟨i 0, i 1, eq_ix2 i⟩
  have hz : z.val = 0 := by have := z.isLt; omega
  refine (shapeCast_apply v hs (ix2 z c) (ix1 c) ?_).trans (broadcastInDim_apply ![1] h1 v (ix2 z c) (ix1 c) fun a => ?_).symm
  · rewrite [Shape.rowMajor_val_two, Shape.rowMajor_val_one]
    show c.val = z.val * N + c.val
    rw [hz]; simp
  · match a with
    | ⟨0, _⟩ =>
      show c.val = if N = 1 then 0 else c.val
      split
      · have := c.isLt; omega
      · rfl

/-- A constant splat over TM rows is the picked rows of the same constant broadcast from rank zero over M rows. -/
theorem splat_rows (ρ : Fin TM → Fin M) (w : BitVec 32) (h : (⟨0, ![]⟩ : Shape).BroadcastsInDim ⟨2, ![M, N]⟩ ![]) :
    (broadcast ⟨2, ![TM, N]⟩ (Scalar.ofBits (F := Ideal) .f32 w) : FVec Ideal ⟨2, ![TM, N]⟩ .f32)
      = rowsOf ρ (broadcastInDim ⟨2, ![M, N]⟩ ![] h (constant (F := Ideal) ⟨0, ![]⟩ .f32 w)) := by
  funext j
  exact (Cert.HostLayout.scalar_apply (constant (F := Ideal) ⟨0, ![]⟩ .f32 w) h (ix2 (ρ (j 0)) (j 1))).symm

/-- The maximum with a splat zero of picked rows is the picked rows of the host's maximum with zero. -/
theorem relu_rows (ρ : Fin TM → Fin M) (h0 : (⟨0, ![]⟩ : Shape).BroadcastsInDim ⟨2, ![M, N]⟩ ![])
    (Y : FVec Ideal ⟨2, ![M, N]⟩ .f32) :
    maximumf (rowsOf ρ Y) (broadcast ⟨2, ![TM, N]⟩ (Scalar.ofBits (F := Ideal) .f32 0x00000000#32)) = rowsOf ρ (relu h0 Y) := by
  rw [splat_rows ρ 0x00000000#32 h0]; rfl

/-- The product of a splat constant with picked rows is the picked rows of the host's product with the constant. -/
theorem scaled_rows (ρ : Fin TM → Fin M) (w : BitVec 32) (h0 : (⟨0, ![]⟩ : Shape).BroadcastsInDim ⟨2, ![M, N]⟩ ![])
    (Y : FVec Ideal ⟨2, ![M, N]⟩ .f32) :
    mulf (broadcast ⟨2, ![TM, N]⟩ (Scalar.ofBits (F := Ideal) .f32 w)) (rowsOf ρ Y) = rowsOf ρ (scaled w h0 Y) := by
  rw [splat_rows ρ w h0]; rfl

end Cert.BlockRows

end
-- ==== Proof.Blocks.lean ====
/-
  The eight kernel bodies on a block of picked rows.

  Each dense body takes a block of 5000 rows of a 100000-row matrix X, the whole weight table W and a one-row
  bias B, narrows X and W to bf16 (no change on the extended reals), multiplies them on the matrix unit into a
  zero accumulator and adds B to every row.  On the rows picked by any map ρ this is, entry by entry, the picked
  rows of the host's layer X · W + B on the whole matrix: row p of a product depends on row p of X only.
  Each rectifier body takes the same rows of two matrices A and X0 and leaves max(A, 0) + X0 on them, which is
  pointwise, so again the picked rows of the whole-matrix expression.
-/
import proofs.«131371_j64665027609332_1_alg».proof.Proof.Gen.KernelIdeal.Skeleton
import proofs.«131371_j64665027609332_1_alg».proof.Proof.LibBlockRows

noncomputable section

namespace Cert.KernelIdeal.Blocks

open Idealize.ShloMosaic Idealize.ShloMosaic.ValueIdx Cert.KernelIdeal Cert.KernelIdeal.Gen Cert.BlockRows

/-- The printed 5000×128 by 128×128 contraction is the plain matrix product. -/
theorem dot128_eq : dot_S5000x128_S128x128_S5000x128_1_0_0_1_n_n = DotDims.plain 5000 128 128 := rfl
/-- The printed 5000×128 by 128×40 contraction is the plain matrix product. -/
theorem dot40_eq : dot_S5000x128_S128x40_S5000x40_1_0_0_1_n_n = DotDims.plain 5000 128 40 := rfl

theorem row128_to_all : (⟨2, ![1, 128]⟩ : Shape).BroadcastsInDim ⟨2, ![100000, 128]⟩ ![0, 1] := by decide
theorem row40_to_all : (⟨2, ![1, 40]⟩ : Shape).BroadcastsInDim ⟨2, ![100000, 40]⟩ ![0, 1] := by decide
theorem scalar_to_all : (⟨0, ![]⟩ : Shape).BroadcastsInDim ⟨2, ![100000, 128]⟩ ![] := by decide

/-- The host's layer X · W + B on all 100000 rows, 128 columns out. -/
abbrev layer128 (X : FVec Ideal S100000x128 .f32) (W : FVec Ideal S128x128 .f32) (B : FVec Ideal S1x128 .f32) :
    FVec Ideal S100000x128 .f32 := dense (M := 100000) (K := 128) (N := 128) row128_to_all X W B

/-- The host's layer X · W + B on all 100000 rows, 40 columns out. -/
abbrev layer40 (X : FVec Ideal S100000x128 .f32) (W : FVec Ideal S128x40 .f32) (B : FVec Ideal S1x40 .f32) :
    FVec Ideal S100000x40 .f32 := dense (M := 100000) (K := 128) (N := 40) row40_to_all X W B

/-- max(A, 0) + X0 on all rows, the zero a rank-zero constant broadcast. -/
abbrev rectified (A X0 : FVec Ideal S100000x128 .f32) : FVec Ideal S100000x128 .f32 :=
  addf (relu (M := 100000) (N := 128) scalar_to_all A) X0

/-- A dense body with 128 output columns on picked rows, in the two spellings the bodies use (with and without
    an identity re-laying of the loaded block first). -/
theorem dense128_rows (ρ : Fin 5000 → Fin 100000) (X : FVec Ideal S100000x128 .f32) (W : FVec Ideal S128x128 .f32)
    (B : FVec Ideal S1x128 .f32) :
    addf (matmul (DotDims.plain 5000 128 128) none (truncf .bf16 (rowsOf ρ X) bitsLt_bf16_f32) (truncf .bf16 W bitsLt_bf16_f32)
        (constant ⟨2, ![5000, 128]⟩ .f32 0x00000000#32))
      (broadcastTo ⟨2, ![5000, 128]⟩ (shapeCast ⟨2, ![1, 128]⟩ B shapeCasts_S1x128_S1x128) broadcasts_S1x128_S5000x128)
      = rowsOf ρ (layer128 X W B) := by
  refine (congrArg (fun z => addf z (broadcastTo ⟨2, ![5000, 128]⟩ (shapeCast ⟨2, ![1, 128]⟩ B shapeCasts_S1x128_S1x128)
    broadcasts_S1x128_S5000x128)) ?_).trans
    (dense_rows ρ (rfl : (⟨2, ![128, 128]⟩ : Shape).ShapeCasts ⟨2, ![128, 128]⟩) shapeCasts_S1x128_S1x128
      broadcasts_S1x128_S5000x128 row128_to_all X W B)
  rw [shapeCast_self]
  exact (matmul_rows ρ none none _ _ X W (fun _ _ => rfl) (fun _ _ => rfl)).trans
    (matmul_rows ρ none none _ _ X W (fun _ _ => rfl) (fun _ _ => rfl)).symm

theorem dense40_rows (ρ : Fin 5000 → Fin 100000) (X : FVec Ideal S100000x128 .f32) (W : FVec Ideal S128x40 .f32)
    (B : FVec Ideal S1x40 .f32) :
    addf (matmul (DotDims.plain 5000 128 40) none (truncf .bf16 (rowsOf ρ X) bitsLt_bf16_f32) (truncf .bf16 W bitsLt_bf16_f32)
        (constant ⟨2, ![5000, 40]⟩ .f32 0x00000000#32))
      (broadcastTo ⟨2, ![5000, 40]⟩ (shapeCast ⟨2, ![1, 40]⟩ B shapeCasts_S1x40_S1x40) broadcasts_S1x40_S5000x40)
      = rowsOf ρ (layer40 X W B) := by
  refine (congrArg (fun z => addf z (broadcastTo ⟨2, ![5000, 40]⟩ (shapeCast ⟨2, ![1, 40]⟩ B shapeCasts_S1x40_S1x40)
    broadcasts_S1x40_S5000x40)) ?_).trans
    (dense_rows ρ (rfl : (⟨2, ![128, 40]⟩ : Shape).ShapeCasts ⟨2, ![128, 40]⟩) shapeCasts_S1x40_S1x40
      broadcasts_S1x40_S5000x40 row40_to_all X W B)
  rw [shapeCast_self]
  exact (matmul_rows ρ none none _ _ X W (fun _ _ => rfl) (fun _ _ => rfl)).trans
    (matmul_rows ρ none none _ _ X W (fun _ _ => rfl) (fun _ _ => rfl)).symm

/-- Region 0's body on picked rows. -/
theorem pay0_rows (ρ : Fin 5000 → Fin 100000) (X : FVec Ideal S100000x128 .f32) (W : FVec Ideal S128x128 .f32)
    (B : FVec Ideal S1x128 .f32) : k0_pay1 (F := Ideal) (rowsOf ρ X) W B = rowsOf ρ (layer128 X W B) := by
  unfold k0_pay1
  rw [dot128_eq]
  exact dense128_rows ρ X W B

/-- Region 1's body on picked rows. -/
theorem pay1_rows (ρ : Fin 5000 → Fin 100000) (X : FVec Ideal S100000x128 .f32) (W : FVec Ideal S128x128 .f32)
    (B : FVec Ideal S1x128 .f32) : k1_pay1 (F := Ideal) (rowsOf ρ X) W B = rowsOf ρ (layer128 X W B) := by
  unfold k1_pay1
  rw [dot128_eq]
  exact dense128_rows ρ X W B

/-- Region 3's body on picked rows. -/
theorem pay3_rows (ρ : Fin 5000 → Fin 100000) (X : FVec Ideal S100000x128 .f32) (W : FVec Ideal S128x128 .f32)
    (B : FVec Ideal S1x128 .f32) : k3_pay1 (F := Ideal) (rowsOf ρ X) W B = rowsOf ρ (layer128 X W B) := by
  unfold k3_pay1
  rw [dot128_eq, shapeCast_self]
  exact dense128_rows ρ X W B

/-- Region 5's body on picked rows. -/
theorem pay5_rows (ρ : Fin 5000 → Fin 100000) (X : FVec Ideal S100000x128 .f32) (W : FVec Ideal S128x128 .f32)
    (B : FVec Ideal S1x128 .f32) : k5_pay1 (F := Ideal) (rowsOf ρ X) W B = rowsOf ρ (layer128 X W B) := by
  unfold k5_pay1
  rw [dot128_eq, shapeCast_self]
  exact dense128_rows ρ X W B

/-- Region 7's body on picked rows. -/
theorem pay7_rows (ρ : Fin 5000 → Fin 100000) (X : FVec Ideal S100000x128 .f32) (W : FVec Ideal S128x40 .f32)
    (B : FVec Ideal S1x40 .f32) : k7_pay1 (F := Ideal) (rowsOf ρ X) W B = rowsOf ρ (layer40 X W B) := by
  unfold k7_pay1
  rw [dot40_eq, shapeCast_self]
  exact dense40_rows ρ X W B

/-- A rectifier body on picked rows. -/
theorem rectified_rows (ρ : Fin 5000 → Fin 100000) (A X0 : FVec Ideal S100000x128 .f32) :
    addf (maximumf (rowsOf ρ A) (broadcast ⟨2, ![5000, 128]⟩ (Scalar.ofBits (F := Ideal) .f32 0x00000000#32))) (rowsOf ρ X0)
      = rowsOf ρ (rectified A X0) := by
  rw [relu_rows ρ scalar_to_all A]; rfl

/-- Region 2's body on picked rows. -/
theorem pay2_rows (ρ : Fin 5000 → Fin 100000) (A X0 : FVec Ideal S100000x128 .f32) :
    k2_pay1 (F := Ideal) (rowsOf ρ A) (rowsOf ρ X0) = rowsOf ρ (rectified A X0) := by
  unfold k2_pay1
  rw [shapeCast_self, shapeCast_self]
  exact rectified_rows ρ A X0

/-- Region 4's body on picked rows. -/
theorem pay4_rows (ρ : Fin 5000 → Fin 100000) (A X0 : FVec Ideal S100000x128 .f32) :
    k4_pay1 (F := Ideal) (rowsOf ρ A) (rowsOf ρ X0) = rowsOf ρ (rectified A X0) := by
  unfold k4_pay1
  rw [shapeCast_self, shapeCast_self]
  exact rectified_rows ρ A X0

/-- Region 6's body on picked rows. -/
theorem pay6_rows (ρ : Fin 5000 → Fin 100000) (A X0 : FVec Ideal S100000x128 .f32) :
    k6_pay1 (F := Ideal) (rowsOf ρ A) (rowsOf ρ X0) = rowsOf ρ (rectified A X0) := by
  unfold k6_pay1
  rw [shapeCast_self, shapeCast_self]
  exact rectified_rows ρ A X0

end Cert.KernelIdeal.Blocks

end
-- ==== Proof.Regions.lean ====
/-
  The eight regions of the kernel's program, each read as ONE whole-array function of the arrays it finds.

  Every region runs twenty grid points; point t stages rows 5000·t … 5000·t + 4999 of its row-blocked operands and
  the whole of its small operands (a weight table, a one-row bias), and writes back the same rows of its result.
  Because a row of a matrix product depends on that row of the left factor only, and the rectifier is pointwise,
  what a point writes back is its block of one whole-array function: X · W + B for a dense region, max(A, 0) + X0
  for a rectifier region.  The twenty blocks tile the 100000 rows, so after the region the result array IS that
  function of the arrays the region found, whatever those are (the lemmas are stated at any entry contents V).
  The five dense regions share one argument, as do the three rectifier regions; each is spelt out for its own region
  because each region has its own windows, index maps and proof data.
-/
import proofs.«131371_j64665027609332_1_alg».proof.Proof.Gen.KernelIdeal.Frame
import proofs.«131371_j64665027609332_1_alg».proof.Proof.Blocks
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Blocks Cert.BlockRows

theorem hz : (![0, 0] : Fin 2 → Nat) = fun _ => 0 := funext fun a => by fin_cases a <;> rfl

variable (V : (c : Dev nD) → (b : Ref sig .tc) → Buf (Elt Ideal) ((c : Thread nD τ).loc b))

/-! ## Region 0: a dense layer, blocks of 5000 rows of `main_arg0` against the whole of `main_arg3` and `main_v23`, into `main_v26` -/

/-- The index maps over the grid: the row block of the input and of the output is the grid point's, every other
    block index is zero, and there are twenty row blocks. -/
theorem idx_facts0 : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 19 :=
  (by decide +kernel : ∀ t : Fin grid0.N, _)

/-- Every one of the twenty row blocks of the output is some grid point's. -/
theorem idx_onto0 : ∀ q : Fin 20, ∃ t : Fin cfg0.N, win0_3.index t = ![q.val, 0] :=
  (by decide +kernel : ∀ q : Fin 20, ∃ t : Fin grid0.N, win0_3.index t = ![q.val, 0])

/-- The rows of the whole matrix that grid point `t` works on: 5000 · (its row block) + p. -/
def rows0 (t : Fin cfg0.N) : Fin 5000 → Fin 100000 := fun p =>
  ⟨win0_3.index t (0 : Fin 2) * 5000 + p.val, by
    have h := (idx_facts0 t).2.2.2.2.2.2.2
    have hp := p.isLt
    omega⟩

/-- The input block at a point is the point's rows of the input matrix. -/
theorem iblk0_0_eq (c : Dev nD) (t : Fin cfg0.N) :
    (iblk0 V c 0 t : Vec Ideal S5000x128 .f32) = rowsOf (rows0 t) (V c main_arg0) := by
  obtain ⟨e0, e1, -, -, -, -, -, -⟩ := idx_facts0 t
  funext j
  show V c main_arg0 (((cfg0.win 0).blk t).view.emb j) = V c main_arg0 (ix2 (rows0 t (j 0)) (j 1))
  refine congrArg (V c main_arg0) ?_
  funext a; apply Fin.ext
  match a with
  | ⟨0, _⟩ => show win0_0.index t (0 : Fin 2) * 5000 + 1 * (j 0).val = win0_3.index t (0 : Fin 2) * 5000 + (j 0).val; omega
  | ⟨1, _⟩ => show win0_0.index t (1 : Fin 2) * 128 + 1 * (j 1).val = (j 1).val; omega

/-- The weight table's block is the whole table at every point. -/
theorem iblk0_1_eq (c : Dev nD) (t : Fin cfg0.N) : (iblk0 V c 1 t : Vec Ideal S128x128 .f32) = V c main_arg3 := by
  obtain ⟨-, -, -, e3, e4, -, -, -⟩ := idx_facts0 t
  funext j
  show V c main_arg3 (((cfg0.win 1).blk t).view.emb j) = V c main_arg3 j
  refine congrArg (V c main_arg3) ?_
  funext a; apply Fin.ext
  match a with
  | ⟨0, _⟩ => show win0_1.index t (0 : Fin 2) * 128 + 1 * (j 0).val = (j 0).val; omega
  | ⟨1, _⟩ => show win0_1.index t (1 : Fin 2) * 128 + 1 * (j 1).val = (j 1).val; omega

/-- The bias row's block is the whole row at every point. -/
theorem iblk0_2_eq (c : Dev nD) (t : Fin cfg0.N) : (iblk0 V c 2 t : Vec Ideal S1x128 .f32) = V c main_v23 := by
  obtain ⟨-, -, -, -, -, e5, e6, -⟩ := idx_facts0 t
  funext j
  show V c main_v23 (((cfg0.win 2).blk t).view.emb j) = V c main_v23 j
  refine congrArg (V c main_v23) ?_
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- The output's block of any whole matrix is the point's rows of it. -/
theorem oblk0_eq (t : Fin cfg0.N) (G : FVec Ideal S100000x128 .f32) :
    (((cfg0.win 3).blk t).view.read (Elt Ideal) G : Vec Ideal S5000x128 .f32) = rowsOf (rows0 t) G := by
  obtain ⟨-, -, e2, -, -, -, -, -⟩ := idx_facts0 t
  funext j
  show G (((cfg0.win 3).blk t).view.emb j) = G (ix2 (rows0 t (j 0)) (j 1))
  refine congrArg G ?_
  funext a; apply Fin.ext
  match a with
  | ⟨0, _⟩ => show win0_3.index t (0 : Fin 2) * 5000 + 1 * (j 0).val = win0_3.index t (0 : Fin 2) * 5000 + (j 0).val; omega
  | ⟨1, _⟩ => show win0_3.index t (1 : Fin 2) * 128 + 1 * (j 1).val = (j 1).val; omega

/-- What point `t` writes back is its block of the host's layer on the whole arrays. -/
theorem flushed0_eq (c : Dev nD) (t : Fin cfg0.N) :
    (dat0 V c).flushed 3 t
      = ((cfg0.win 3).blk t).view.read (Elt Ideal) (layer128 (V c main_arg0) (V c main_arg3) (V c main_v23)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [iblk0_0_eq V c t, iblk0_1_eq V c t, iblk0_2_eq V c t, oblk0_eq t]
  exact pay0_rows (rows0 t) (V c main_arg0) (V c main_arg3) (V c main_v23)

/-- An index of the output array is in point `t`'s block iff each coordinate is in the block's range. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v26).slice (win0_3.rect t)).set ↔ _
  rw [View.set_slice_whole, Rect.mem_set_unit]
  exact Iff.rfl

/-- The twenty blocks cover the output array: row r lies in block r / 5000. -/
theorem cover0 (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto0 ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- REGION 0: after its twenty points the output array is the host's layer on the arrays the region found. -/
theorem region0 (c : Dev nD) :
    (dat0 V c).arrAt 3 cfg0.N = layer128 (V c main_arg0) (V c main_arg3) (V c main_v23) :=
  (dat0 V c).arrAt_eq_of_cover 3 _ (fun t _ => flushed0_eq V c t) (cover0)

/-! ## Region 1: a dense layer, blocks of 5000 rows of `main_arg0` against the whole of `main_arg5` and `main_v24`, into `main_v27` -/

/-- The index maps over the grid: the row block of the input and of the output is the grid point's, every other
    block index is zero, and there are twenty row blocks. -/
theorem idx_facts1 : ∀ t : Fin cfg1.N, win1_0.index t (0 : Fin 2) = win1_3.index t (0 : Fin 2)
    ∧ win1_0.index t (1 : Fin 2) = 0 ∧ win1_3.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) ≤ 19 :=
  (by decide +kernel : ∀ t : Fin grid1.N, _)

/-- Every one of the twenty row blocks of the output is some grid point's. -/
theorem idx_onto1 : ∀ q : Fin 20, ∃ t : Fin cfg1.N, win1_3.index t = ![q.val, 0] :=
  (by decide +kernel : ∀ q : Fin 20, ∃ t : Fin grid1.N, win1_3.index t = ![q.val, 0])

/-- The rows of the whole matrix that grid point `t` works on: 5000 · (its row block) + p. -/
def rows1 (t : Fin cfg1.N) : Fin 5000 → Fin 100000 := fun p =>
  ⟨win1_3.index t (0 : Fin 2) * 5000 + p.val, by
    have h := (idx_facts1 t).2.2.2.2.2.2.2
    have hp := p.isLt
    omega⟩

/-- The input block at a point is the point's rows of the input matrix. -/
theorem iblk1_0_eq (c : Dev nD) (t : Fin cfg1.N) :
    (iblk1 V c 0 t : Vec Ideal S5000x128 .f32) = rowsOf (rows1 t) (V c main_arg0) := by
  obtain ⟨e0, e1, -, -, -, -, -, -⟩ := idx_facts1 t
  funext j
  show V c main_arg0 (((cfg1.win 0).blk t).view.emb j) = V c main_arg0 (ix2 (rows1 t (j 0)) (j 1))
  refine congrArg (V c main_arg0) ?_
  funext a; apply Fin.ext
  match a with
  | ⟨0, _⟩ => show win1_0.index t (0 : Fin 2) * 5000 + 1 * (j 0).val = win1_3.index t (0 : Fin 2) * 5000 + (j 0).val; omega
  | ⟨1, _⟩ => show win1_0.index t (1 : Fin 2) * 128 + 1 * (j 1).val = (j 1).val; omega

/-- The weight table's block is the whole table at every point. -/
theorem iblk1_1_eq (c : Dev nD) (t : Fin cfg1.N) : (iblk1 V c 1 t : Vec Ideal S128x128 .f32) = V c main_arg5 := by
  obtain ⟨-, -, -, e3, e4, -, -, -⟩ := idx_facts1 t
  funext j
  show V c main_arg5 (((cfg1.win 1).blk t).view.emb j) = V c main_arg5 j
  refine congrArg (V c main_arg5) ?_
  funext a; apply Fin.ext
  match a with
  | ⟨0, _⟩ => show win1_1.index t (0 : Fin 2) * 128 + 1 * (j 0).val = (j 0).val; omega
  | ⟨1, _⟩ => show win1_1.index t (1 : Fin 2) * 128 + 1 * (j 1).val = (j 1).val; omega

/-- The bias row's block is the whole row at every point. -/
theorem iblk1_2_eq (c : Dev nD) (t : Fin cfg1.N) : (iblk1 V c 2 t : Vec Ideal S1x128 .f32) = V c main_v24 := by
  obtain ⟨-, -, -, -, -, e5, e6, -⟩ := idx_facts1 t
  funext j
  show V c main_v24 (((cfg1.win 2).blk t).view.emb j) = V c main_v24 j
  refine congrArg (V c main_v24) ?_
  funext a; apply Fin.ext
  match a with
  | ⟨0, _⟩ => show win1_2.index t (0 : Fin 2) * 1 + 1 * (j 0).val = (j 0).val; omega
  | ⟨1, _⟩ => show win1_2.index t (1 : Fin 2) * 128 + 1 * (j 1).val = (j 1).val; omega

/-- The output's block of any whole matrix is the point's rows of it. -/
theorem oblk1_eq (t : Fin cfg1.N) (G : FVec Ideal S100000x128 .f32) :
    (((cfg1.win 3).blk t).view.read (Elt Ideal) G : Vec Ideal S5000x128 .f32) = rowsOf (rows1 t) G := by
  obtain ⟨-, -, e2, -, -, -, -, -⟩ := idx_facts1 t
  funext j
  show G (((cfg1.win 3).blk t).view.emb j) = G (ix2 (rows1 t (j 0)) (j 1))
  refine congrArg G ?_
  funext a; apply Fin.ext
  match a with
  | ⟨0, _⟩ => show win1_3.index t (0 : Fin 2) * 5000 + 1 * (j 0).val = win1_3.index t (0 : Fin 2) * 5000 + (j 0).val; omega
  | ⟨1, _⟩ => show win1_3.index t (1 : Fin 2) * 128 + 1 * (j 1).val = (j 1).val; omega

/-- What point `t` writes back is its block of the host's layer on the whole arrays. -/
theorem flushed1_eq (c : Dev nD) (t : Fin cfg1.N) :
    (dat1 V c).flushed 3 t
      = ((cfg1.win 3).blk t).view.read (Elt Ideal) (layer128 (V c main_arg0) (V c main_arg5) (V c main_v24)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz, View.ld_unit_zero (S := S1x128) hz]
  rw [iblk1_0_eq V c t, iblk1_1_eq V c t, iblk1_2_eq V c t, oblk1_eq t]
  exact pay1_rows (rows1 t) (V c main_arg0) (V c main_arg5) (V c main_v24)

/-- An index of the output array is in point `t`'s block iff each coordinate is in the block's range. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v27).slice (win1_3.rect t)).set ↔ _
  rw [View.set_slice_whole, Rect.mem_set_unit]
  exact Iff.rfl

/-- The twenty blocks cover the output array: row r lies in block r / 5000. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- REGION 1: after its twenty points the output array is the host's layer on the arrays the region found. -/
theorem region1 (c : Dev nD) :
    (dat1 V c).arrAt 3 cfg1.N = layer128 (V c main_arg0) (V c main_arg5) (V c main_v24) :=
  (dat1 V c).arrAt_eq_of_cover 3 _ (fun t _ => flushed1_eq V c t) (cover1)

/-! ## Region 2: the rectifier with residual, blocks of 5000 rows of `main_v40` and `main_v26`, into `main_v41` -/

/-- The index maps over the grid: all three windows are on the grid point's row block, column block zero, and
    there are twenty row blocks. -/
theorem idx_facts2 : ∀ t : Fin cfg2.N, win2_0.index t (0 : Fin 2) = win2_2.index t (0 : Fin 2)
    ∧ win2_0.index t (1 : Fin 2) = 0
    ∧ win2_1.index t (0 : Fin 2) = win2_2.index t (0 : Fin 2)
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks of the output is some grid point's. -/
theorem idx_onto2 : ∀ q : Fin 20, ∃ t : Fin cfg2.N, win2_2.index t = ![q.val, 0] :=
  (by decide +kernel : ∀ q : Fin 20, ∃ t : Fin grid2.N, win2_2.index t = ![q.val, 0])

/-- The rows of the whole matrix that grid point `t` works on: 5000 · (its row block) + p. -/
def rows2 (t : Fin cfg2.N) : Fin 5000 → Fin 100000 := fun p =>
  ⟨win2_2.index t (0 : Fin 2) * 5000 + p.val, by
    have h := (idx_facts2 t).2.2.2.2.2
    have hp := p.isLt
    omega⟩

/-- The first input's block at a point is the point's rows of it. -/
theorem iblk2_0_eq (c : Dev nD) (t : Fin cfg2.N) :
    (iblk2 V c 0 t : Vec Ideal S5000x128 .f32) = rowsOf (rows2 t) (V c main_v40) := by
  obtain ⟨e0, e1, -, -, -, -⟩ := idx_facts2 t
  funext j
  show V c main_v40 (((cfg2.win 0).blk t).view.emb j) = V c main_v40 (ix2 (rows2 t (j 0)) (j 1))
  refine congrArg (V c main_v40) ?_
  funext a; apply Fin.ext
  match a with
  | ⟨0, _⟩ => show win2_0.index t (0 : Fin 2) * 5000 + 1 * (j 0).val = win2_2.index t (0 : Fin 2) * 5000 + (j 0).val; omega
  | ⟨1, _⟩ => show win2_0.index t (1 : Fin 2) * 128 + 1 * (j 1).val = (j 1).val; omega

/-- The second input's block at a point is the point's rows of it. -/
theorem iblk2_1_eq (c : Dev nD) (t : Fin cfg2.N) :
    (iblk2 V c 1 t : Vec Ideal S5000x128 .f32) = rowsOf (rows2 t) (V c main_v26) := by
  obtain ⟨-, -, e2, e3, -, -⟩ := idx_facts2 t
  funext j
  show V c main_v26 (((cfg2.win 1).blk t).view.emb j) = V c main_v26 (ix2 (rows2 t (j 0)) (j 1))
  refine congrArg (V c main_v26) ?_
  funext a; apply Fin.ext
  match a with
  | ⟨0, _⟩ => show win2_1.index t (0 : Fin 2) * 5000 + 1 * (j 0).val = win2_2.index t (0 : Fin 2) * 5000 + (j 0).val; omega
  | ⟨1, _⟩ => show win2_1.index t (1 : Fin 2) * 128 + 1 * (j 1).val = (j 1).val; omega

/-- The output's block of any whole matrix is the point's rows of it. -/
theorem oblk2_eq (t : Fin cfg2.N) (G : FVec Ideal S100000x128 .f32) :
    (((cfg2.win 2).blk t).view.read (Elt Ideal) G : Vec Ideal S5000x128 .f32) = rowsOf (rows2 t) G := by
  obtain ⟨-, -, -, -, e4, -⟩ := idx_facts2 t
  funext j
  show G (((cfg2.win 2).blk t).view.emb j) = G (ix2 (rows2 t (j 0)) (j 1))
  refine congrArg G ?_
  funext a; apply Fin.ext
  match a with
  | ⟨0, _⟩ => show win2_2.index t (0 : Fin 2) * 5000 + 1 * (j 0).val = win2_2.index t (0 : Fin 2) * 5000 + (j 0).val; omega
  | ⟨1, _⟩ => show win2_2.index t (1 : Fin 2) * 128 + 1 * (j 1).val = (j 1).val; omega

/-- What point `t` writes back is its block of max(A, 0) + X0 on the whole arrays. -/
theorem flushed2_eq (c : Dev nD) (t : Fin cfg2.N) :
    (dat2 V c).flushed 2 t
      = ((cfg2.win 2).blk t).view.read (Elt Ideal) (rectified (V c main_v40) (V c main_v26)) := by
  show (cfg2.win 2).cut (grid2.coords t) ((dat2 V c).after 2 t) = _
  rw [after2_2]
  unfold out2_2
  rw [View.canon_unit_zero hz]
  simp only [View.ld_unit_zero (S := S5000x128) hz]
  rw [iblk2_0_eq V c t, iblk2_1_eq V c t, oblk2_eq t]
  exact pay2_rows (rows2 t) (V c main_v40) (V c main_v26)

/-- An index of the output array is in point `t`'s block iff each coordinate is in the block's range. -/
theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v41).slice (win2_2.rect t)).set ↔ _
  rw [View.set_slice_whole, Rect.mem_set_unit]
  exact Iff.rfl

/-- The twenty blocks cover the output array: row r lies in block r / 5000. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- REGION 2: after its twenty points the output array is max(A, 0) + X0 of the arrays the region found. -/
theorem region2 (c : Dev nD) :
    (dat2 V c).arrAt 2 cfg2.N = rectified (V c main_v40) (V c main_v26) :=
  (dat2 V c).arrAt_eq_of_cover 2 _ (fun t _ => flushed2_eq V c t) (cover2)

/-! ## Region 3: a dense layer, blocks of 5000 rows of `main_v41` against the whole of `main_arg6` and `main_v24`, into `main_v42` -/

/-- The index maps over the grid: the row block of the input and of the output is the grid point's, every other
    block index is zero, and there are twenty row blocks. -/
theorem idx_facts3 : ∀ t : Fin cfg3.N, win3_0.index t (0 : Fin 2) = win3_3.index t (0 : Fin 2)
    ∧ win3_0.index t (1 : Fin 2) = 0 ∧ win3_3.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) ≤ 19 :=
  (by decide +kernel : ∀ t : Fin grid3.N, _)

/-- Every one of the twenty row blocks of the output is some grid point's. -/
theorem idx_onto3 : ∀ q : Fin 20, ∃ t : Fin cfg3.N, win3_3.index t = ![q.val, 0] :=
  (by decide +kernel : ∀ q : Fin 20, ∃ t : Fin grid3.N, win3_3.index t = ![q.val, 0])

/-- The rows of the whole matrix that grid point `t` works on: 5000 · (its row block) + p. -/
def rows3 (t : Fin cfg3.N) : Fin 5000 → Fin 100000 := fun p =>
  ⟨win3_3.index t (0 : Fin 2) * 5000 + p.val, by
    have h := (idx_facts3 t).2.2.2.2.2.2.2
    have hp := p.isLt
    omega⟩

/-- The input block at a point is the point's rows of the input matrix. -/
theorem iblk3_0_eq (c : Dev nD) (t : Fin cfg3.N) :
    (iblk3 V c 0 t : Vec Ideal S5000x128 .f32) = rowsOf (rows3 t) (V c main_v41) := by
  obtain ⟨e0, e1, -, -, -, -, -, -⟩ := idx_facts3 t
  funext j
  show V c main_v41 (((cfg3.win 0).blk t).view.emb j) = V c main_v41 (ix2 (rows3 t (j 0)) (j 1))
  refine congrArg (V c main_v41) ?_
  funext a; apply Fin.ext
  match a with
  | ⟨0, _⟩ => show win3_0.index t (0 : Fin 2) * 5000 + 1 * (j 0).val = win3_3.index t (0 : Fin 2) * 5000 + (j 0).val; omega
  | ⟨1, _⟩ => show win3_0.index t (1 : Fin 2) * 128 + 1 * (j 1).val = (j 1).val; omega

/-- The weight table's block is the whole table at every point. -/
theorem iblk3_1_eq (c : Dev nD) (t : Fin cfg3.N) : (iblk3 V c 1 t : Vec Ideal S128x128 .f32) = V c main_arg6 := by
  obtain ⟨-, -, -, e3, e4, -, -, -⟩ := idx_facts3 t
  funext j
  show V c main_arg6 (((cfg3.win 1).blk t).view.emb j) = V c main_arg6 j
  refine congrArg (V c main_arg6) ?_
  funext a; apply Fin.ext
  match a with
  | ⟨0, _⟩ => show win3_1.index t (0 : Fin 2) * 128 + 1 * (j 0).val = (j 0).val; omega
  | ⟨1, _⟩ => show win3_1.index t (1 : Fin 2) * 128 + 1 * (j 1).val = (j 1).val; omega

/-- The bias row's block is the whole row at every point. -/
theorem iblk3_2_eq (c : Dev nD) (t : Fin cfg3.N) : (iblk3 V c 2 t : Vec Ideal S1x128 .f32) = V c main_v24 := by
  obtain ⟨-, -, -, -, -, e5, e6, -⟩ := idx_facts3 t
  funext j
  show V c main_v24 (((cfg3.win 2).blk t).view.emb j) = V c main_v24 j
  refine congrArg (V c main_v24) ?_
  funext a; apply Fin.ext
  match a with
  | ⟨0, _⟩ => show win3_2.index t (0 : Fin 2) * 1 + 1 * (j 0).val = (j 0).val; omega
  | ⟨1, _⟩ => show win3_2.index t (1 : Fin 2) * 128 + 1 * (j 1).val = (j 1).val; omega

/-- The output's block of any whole matrix is the point's rows of it. -/
theorem oblk3_eq (t : Fin cfg3.N) (G : FVec Ideal S100000x128 .f32) :
    (((cfg3.win 3).blk t).view.read (Elt Ideal) G : Vec Ideal S5000x128 .f32) = rowsOf (rows3 t) G := by
  obtain ⟨-, -, e2, -, -, -, -, -⟩ := idx_facts3 t
  funext j
  show G (((cfg3.win 3).blk t).view.emb j) = G (ix2 (rows3 t (j 0)) (j 1))
  refine congrArg G ?_
  funext a; apply Fin.ext
  match a with
  | ⟨0, _⟩ => show win3_3.index t (0 : Fin 2) * 5000 + 1 * (j 0).val = win3_3.index t (0 : Fin 2) * 5000 + (j 0).val; omega
  | ⟨1, _⟩ => show win3_3.index t (1 : Fin 2) * 128 + 1 * (j 1).val = (j 1).val; omega

/-- What point `t` writes back is its block of the host's layer on the whole arrays. -/
theorem flushed3_eq (c : Dev nD) (t : Fin cfg3.N) :
    (dat3 V c).flushed 3 t
      = ((cfg3.win 3).blk t).view.read (Elt Ideal) (layer128 (V c main_v41) (V c main_arg6) (V c main_v24)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz, View.ld_unit_zero (S := S1x128) hz]
  rw [iblk3_0_eq V c t, iblk3_1_eq V c t, iblk3_2_eq V c t, oblk3_eq t]
  exact pay3_rows (rows3 t) (V c main_v41) (V c main_arg6) (V c main_v24)

/-- An index of the output array is in point `t`'s block iff each coordinate is in the block's range. -/
theorem mem_blk3 (t : Fin cfg3.N) (i : S100000x128.Idx) :
    i ∈ ((cfg3.win 3).blk t).view.set ↔ ∀ a : Fin 2, win3_3.index t a * S5000x128.size a ≤ (i a).val ∧ (i a).val < win3_3.index t a * S5000x128.size a + S5000x128.size a := by
  show i ∈ ((View.whole main_v42).slice (win3_3.rect t)).set ↔ _
  rw [View.set_slice_whole, Rect.mem_set_unit]
  exact Iff.rfl

/-- The twenty blocks cover the output array: row r lies in block r / 5000. -/
theorem cover3 (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- REGION 3: after its twenty points the output array is the host's layer on the arrays the region found. -/
theorem region3 (c : Dev nD) :
    (dat3 V c).arrAt 3 cfg3.N = layer128 (V c main_v41) (V c main_arg6) (V c main_v24) :=
  (dat3 V c).arrAt_eq_of_cover 3 _ (fun t _ => flushed3_eq V c t) (cover3)

/-! ## Region 4: the rectifier with residual, blocks of 5000 rows of `main_v55` and `main_v26`, into `main_v56` -/

/-- The index maps over the grid: all three windows are on the grid point's row block, column block zero, and
    there are twenty row blocks. -/
theorem idx_facts4 : ∀ t : Fin cfg4.N, win4_0.index t (0 : Fin 2) = win4_2.index t (0 : Fin 2)
    ∧ win4_0.index t (1 : Fin 2) = 0
    ∧ win4_1.index t (0 : Fin 2) = win4_2.index t (0 : Fin 2)
    ∧ win4_1.index t (1 : Fin 2) = 0
    ∧ win4_2.index t (1 : Fin 2) = 0
    ∧ win4_2.index t (0 : Fin 2) ≤ 19 :=
  (by decide +kernel : ∀ t : Fin grid4.N, _)

/-- Every one of the twenty row blocks of the output is some grid point's. -/
theorem idx_onto4 : ∀ q : Fin 20, ∃ t : Fin cfg4.N, win4_2.index t = ![q.val, 0] :=
  (by decide +kernel : ∀ q : Fin 20, ∃ t : Fin grid4.N, win4_2.index t = ![q.val, 0])

/-- The rows of the whole matrix that grid point `t` works on: 5000 · (its row block) + p. -/
def rows4 (t : Fin cfg4.N) : Fin 5000 → Fin 100000 := fun p =>
  ⟨win4_2.index t (0 : Fin 2) * 5000 + p.val, by
    have h := (idx_facts4 t).2.2.2.2.2
    have hp := p.isLt
    omega⟩

/-- The first input's block at a point is the point's rows of it. -/
theorem iblk4_0_eq (c : Dev nD) (t : Fin cfg4.N) :
    (iblk4 V c 0 t : Vec Ideal S5000x128 .f32) = rowsOf (rows4 t) (V c main_v55) := by
  obtain ⟨e0, e1, -, -, -, -⟩ := idx_facts4 t
  funext j
  show V c main_v55 (((cfg4.win 0).blk t).view.emb j) = V c main_v55 (ix2 (rows4 t (j 0)) (j 1))
  refine congrArg (V c main_v55) ?_
  funext a; apply Fin.ext
  match a with
  | ⟨0, _⟩ => show win4_0.index t (0 : Fin 2) * 5000 + 1 * (j 0).val = win4_2.index t (0 : Fin 2) * 5000 + (j 0).val; omega
  | ⟨1, _⟩ => show win4_0.index t (1 : Fin 2) * 128 + 1 * (j 1).val = (j 1).val; omega

/-- The second input's block at a point is the point's rows of it. -/
theorem iblk4_1_eq (c : Dev nD) (t : Fin cfg4.N) :
    (iblk4 V c 1 t : Vec Ideal S5000x128 .f32) = rowsOf (rows4 t) (V c main_v26) := by
  obtain ⟨-, -, e2, e3, -, -⟩ := idx_facts4 t
  funext j
  show V c main_v26 (((cfg4.win 1).blk t).view.emb j) = V c main_v26 (ix2 (rows4 t (j 0)) (j 1))
  refine congrArg (V c main_v26) ?_
  funext a; apply Fin.ext
  match a with
  | ⟨0, _⟩ => show win4_1.index t (0 : Fin 2) * 5000 + 1 * (j 0).val = win4_2.index t (0 : Fin 2) * 5000 + (j 0).val; omega
  | ⟨1, _⟩ => show win4_1.index t (1 : Fin 2) * 128 + 1 * (j 1).val = (j 1).val; omega

/-- The output's block of any whole matrix is the point's rows of it. -/
theorem oblk4_eq (t : Fin cfg4.N) (G : FVec Ideal S100000x128 .f32) :
    (((cfg4.win 2).blk t).view.read (Elt Ideal) G : Vec Ideal S5000x128 .f32) = rowsOf (rows4 t) G := by
  obtain ⟨-, -, -, -, e4, -⟩ := idx_facts4 t
  funext j
  show G (((cfg4.win 2).blk t).view.emb j) = G (ix2 (rows4 t (j 0)) (j 1))
  refine congrArg G ?_
  funext a; apply Fin.ext
  match a with
  | ⟨0, _⟩ => show win4_2.index t (0 : Fin 2) * 5000 + 1 * (j 0).val = win4_2.index t (0 : Fin 2) * 5000 + (j 0).val; omega
  | ⟨1, _⟩ => show win4_2.index t (1 : Fin 2) * 128 + 1 * (j 1).val = (j 1).val; omega

/-- What point `t` writes back is its block of max(A, 0) + X0 on the whole arrays. -/
theorem flushed4_eq (c : Dev nD) (t : Fin cfg4.N) :
    (dat4 V c).flushed 2 t
      = ((cfg4.win 2).blk t).view.read (Elt Ideal) (rectified (V c main_v55) (V c main_v26)) := by
  show (cfg4.win 2).cut (grid4.coords t) ((dat4 V c).after 2 t) = _
  rw [after4_2]
  unfold out4_2
  rw [View.canon_unit_zero hz]
  simp only [View.ld_unit_zero (S := S5000x128) hz]
  rw [iblk4_0_eq V c t, iblk4_1_eq V c t, oblk4_eq t]
  exact pay4_rows (rows4 t) (V c main_v55) (V c main_v26)

/-- An index of the output array is in point `t`'s block iff each coordinate is in the block's range. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v56).slice (win4_2.rect t)).set ↔ _
  rw [View.set_slice_whole, Rect.mem_set_unit]
  exact Iff.rfl

/-- The twenty blocks cover the output array: row r lies in block r / 5000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := idx_onto4 ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- REGION 4: after its twenty points the output array is max(A, 0) + X0 of the arrays the region found. -/
theorem region4 (c : Dev nD) :
    (dat4 V c).arrAt 2 cfg4.N = rectified (V c main_v55) (V c main_v26) :=
  (dat4 V c).arrAt_eq_of_cover 2 _ (fun t _ => flushed4_eq V c t) (cover4)

/-! ## Region 5: a dense layer, blocks of 5000 rows of `main_v56` against the whole of `main_arg7` and `main_v24`, into `main_v57` -/

/-- The index maps over the grid: the row block of the input and of the output is the grid point's, every other
    block index is zero, and there are twenty row blocks. -/
theorem idx_facts5 : ∀ t : Fin cfg5.N, win5_0.index t (0 : Fin 2) = win5_3.index t (0 : Fin 2)
    ∧ win5_0.index t (1 : Fin 2) = 0 ∧ win5_3.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) ≤ 19 :=
  (by decide +kernel : ∀ t : Fin grid5.N, _)

/-- Every one of the twenty row blocks of the output is some grid point's. -/
theorem idx_onto5 : ∀ q : Fin 20, ∃ t : Fin cfg5.N, win5_3.index t = ![q.val, 0] :=
  (by decide +kernel : ∀ q : Fin 20, ∃ t : Fin grid5.N, win5_3.index t = ![q.val, 0])

/-- The rows of the whole matrix that grid point `t` works on: 5000 · (its row block) + p. -/
def rows5 (t : Fin cfg5.N) : Fin 5000 → Fin 100000 := fun p =>
  ⟨win5_3.index t (0 : Fin 2) * 5000 + p.val, by
    have h := (idx_facts5 t).2.2.2.2.2.2.2
    have hp := p.isLt
    omega⟩

/-- The input block at a point is the point's rows of the input matrix. -/
theorem iblk5_0_eq (c : Dev nD) (t : Fin cfg5.N) :
    (iblk5 V c 0 t : Vec Ideal S5000x128 .f32) = rowsOf (rows5 t) (V c main_v56) := by
  obtain ⟨e0, e1, -, -, -, -, -, -⟩ := idx_facts5 t
  funext j
  show V c main_v56 (((cfg5.win 0).blk t).view.emb j) = V c main_v56 (ix2 (rows5 t (j 0)) (j 1))
  refine congrArg (V c main_v56) ?_
  funext a; apply Fin.ext
  match a with
  | ⟨0, _⟩ => show win5_0.index t (0 : Fin 2) * 5000 + 1 * (j 0).val = win5_3.index t (0 : Fin 2) * 5000 + (j 0).val; omega
  | ⟨1, _⟩ => show win5_0.index t (1 : Fin 2) * 128 + 1 * (j 1).val = (j 1).val; omega

/-- The weight table's block is the whole table at every point. -/
theorem iblk5_1_eq (c : Dev nD) (t : Fin cfg5.N) : (iblk5 V c 1 t : Vec Ideal S128x128 .f32) = V c main_arg7 := by
  obtain ⟨-, -, -, e3, e4, -, -, -⟩ := idx_facts5 t
  funext j
  show V c main_arg7 (((cfg5.win 1).blk t).view.emb j) = V c main_arg7 j
  refine congrArg (V c main_arg7) ?_
  funext a; apply Fin.ext
  match a with
  | ⟨0, _⟩ => show win5_1.index t (0 : Fin 2) * 128 + 1 * (j 0).val = (j 0).val; omega
  | ⟨1, _⟩ => show win5_1.index t (1 : Fin 2) * 128 + 1 * (j 1).val = (j 1).val; omega

/-- The bias row's block is the whole row at every point. -/
theorem iblk5_2_eq (c : Dev nD) (t : Fin cfg5.N) : (iblk5 V c 2 t : Vec Ideal S1x128 .f32) = V c main_v24 := by
  obtain ⟨-, -, -, -, -, e5, e6, -⟩ := idx_facts5 t
  funext j
  show V c main_v24 (((cfg5.win 2).blk t).view.emb j) = V c main_v24 j
  refine congrArg (V c main_v24) ?_
  funext a; apply Fin.ext
  match a with
  | ⟨0, _⟩ => show win5_2.index t (0 : Fin 2) * 1 + 1 * (j 0).val = (j 0).val; omega
  | ⟨1, _⟩ => show win5_2.index t (1 : Fin 2) * 128 + 1 * (j 1).val = (j 1).val; omega

/-- The output's block of any whole matrix is the point's rows of it. -/
theorem oblk5_eq (t : Fin cfg5.N) (G : FVec Ideal S100000x128 .f32) :
    (((cfg5.win 3).blk t).view.read (Elt Ideal) G : Vec Ideal S5000x128 .f32) = rowsOf (rows5 t) G := by
  obtain ⟨-, -, e2, -, -, -, -, -⟩ := idx_facts5 t
  funext j
  show G (((cfg5.win 3).blk t).view.emb j) = G (ix2 (rows5 t (j 0)) (j 1))
  refine congrArg G ?_
  funext a; apply Fin.ext
  match a with
  | ⟨0, _⟩ => show win5_3.index t (0 : Fin 2) * 5000 + 1 * (j 0).val = win5_3.index t (0 : Fin 2) * 5000 + (j 0).val; omega
  | ⟨1, _⟩ => show win5_3.index t (1 : Fin 2) * 128 + 1 * (j 1).val = (j 1).val; omega

/-- What point `t` writes back is its block of the host's layer on the whole arrays. -/
theorem flushed5_eq (c : Dev nD) (t : Fin cfg5.N) :
    (dat5 V c).flushed 3 t
      = ((cfg5.win 3).blk t).view.read (Elt Ideal) (layer128 (V c main_v56) (V c main_arg7) (V c main_v24)) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  rw [iblk5_0_eq V c t, iblk5_1_eq V c t, iblk5_2_eq V c t, oblk5_eq t]
  exact pay5_rows (rows5 t) (V c main_v56) (V c main_arg7) (V c main_v24)

/-- An index of the output array is in point `t`'s block iff each coordinate is in the block's range. -/
theorem mem_blk5 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v57).slice (win5_3.rect t)).set ↔ _
  rw [View.set_slice_whole, Rect.mem_set_unit]
  exact Iff.rfl

/-- The twenty blocks cover the output array: row r lies in block r / 5000. -/
theorem cover5 (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto5 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- REGION 5: after its twenty points the output array is the host's layer on the arrays the region found. -/
theorem region5 (c : Dev nD) :
    (dat5 V c).arrAt 3 cfg5.N = layer128 (V c main_v56) (V c main_arg7) (V c main_v24) :=
  (dat5 V c).arrAt_eq_of_cover 3 _ (fun t _ => flushed5_eq V c t) (cover5)

/-! ## Region 6: the rectifier with residual, blocks of 5000 rows of `main_v70` and `main_v26`, into `main_v71` -/

/-- The index maps over the grid: all three windows are on the grid point's row block, column block zero, and
    there are twenty row blocks. -/
theorem idx_facts6 : ∀ t : Fin cfg6.N, win6_0.index t (0 : Fin 2) = win6_2.index t (0 : Fin 2)
    ∧ win6_0.index t (1 : Fin 2) = 0
    ∧ win6_1.index t (0 : Fin 2) = win6_2.index t (0 : Fin 2)
    ∧ win6_1.index t (1 : Fin 2) = 0
    ∧ win6_2.index t (1 : Fin 2) = 0
    ∧ win6_2.index t (0 : Fin 2) ≤ 19 :=
  (by decide +kernel : ∀ t : Fin grid6.N, _)

/-- Every one of the twenty row blocks of the output is some grid point's. -/
theorem idx_onto6 : ∀ q : Fin 20, ∃ t : Fin cfg6.N, win6_2.index t = ![q.val, 0] :=
  (by decide +kernel : ∀ q : Fin 20, ∃ t : Fin grid6.N, win6_2.index t = ![q.val, 0])

/-- The rows of the whole matrix that grid point `t` works on: 5000 · (its row block) + p. -/
def rows6 (t : Fin cfg6.N) : Fin 5000 → Fin 100000 := fun p =>
  ⟨win6_2.index t (0 : Fin 2) * 5000 + p.val, by
    have h := (idx_facts6 t).2.2.2.2.2
    have hp := p.isLt
    omega⟩

/-- The first input's block at a point is the point's rows of it. -/
theorem iblk6_0_eq (c : Dev nD) (t : Fin cfg6.N) :
    (iblk6 V c 0 t : Vec Ideal S5000x128 .f32) = rowsOf (rows6 t) (V c main_v70) := by
  obtain ⟨e0, e1, -, -, -, -⟩ := idx_facts6 t
  funext j
  show V c main_v70 (((cfg6.win 0).blk t).view.emb j) = V c main_v70 (ix2 (rows6 t (j 0)) (j 1))
  refine congrArg (V c main_v70) ?_
  funext a; apply Fin.ext
  match a with
  | ⟨0, _⟩ => show win6_0.index t (0 : Fin 2) * 5000 + 1 * (j 0).val = win6_2.index t (0 : Fin 2) * 5000 + (j 0).val; omega
  | ⟨1, _⟩ => show win6_0.index t (1 : Fin 2) * 128 + 1 * (j 1).val = (j 1).val; omega

/-- The second input's block at a point is the point's rows of it. -/
theorem iblk6_1_eq (c : Dev nD) (t : Fin cfg6.N) :
    (iblk6 V c 1 t : Vec Ideal S5000x128 .f32) = rowsOf (rows6 t) (V c main_v26) := by
  obtain ⟨-, -, e2, e3, -, -⟩ := idx_facts6 t
  funext j
  show V c main_v26 (((cfg6.win 1).blk t).view.emb j) = V c main_v26 (ix2 (rows6 t (j 0)) (j 1))
  refine congrArg (V c main_v26) ?_
  funext a; apply Fin.ext
  match a with
  | ⟨0, _⟩ => show win6_1.index t (0 : Fin 2) * 5000 + 1 * (j 0).val = win6_2.index t (0 : Fin 2) * 5000 + (j 0).val; omega
  | ⟨1, _⟩ => show win6_1.index t (1 : Fin 2) * 128 + 1 * (j 1).val = (j 1).val; omega

/-- The output's block of any whole matrix is the point's rows of it. -/
theorem oblk6_eq (t : Fin cfg6.N) (G : FVec Ideal S100000x128 .f32) :
    (((cfg6.win 2).blk t).view.read (Elt Ideal) G : Vec Ideal S5000x128 .f32) = rowsOf (rows6 t) G := by
  obtain ⟨-, -, -, -, e4, -⟩ := idx_facts6 t
  funext j
  show G (((cfg6.win 2).blk t).view.emb j) = G (ix2 (rows6 t (j 0)) (j 1))
  refine congrArg G ?_
  funext a; apply Fin.ext
  match a with
  | ⟨0, _⟩ => show win6_2.index t (0 : Fin 2) * 5000 + 1 * (j 0).val = win6_2.index t (0 : Fin 2) * 5000 + (j 0).val; omega
  | ⟨1, _⟩ => show win6_2.index t (1 : Fin 2) * 128 + 1 * (j 1).val = (j 1).val; omega

/-- What point `t` writes back is its block of max(A, 0) + X0 on the whole arrays. -/
theorem flushed6_eq (c : Dev nD) (t : Fin cfg6.N) :
    (dat6 V c).flushed 2 t
      = ((cfg6.win 2).blk t).view.read (Elt Ideal) (rectified (V c main_v70) (V c main_v26)) := by
  show (cfg6.win 2).cut (grid6.coords t) ((dat6 V c).after 2 t) = _
  rw [after6_2]
  unfold out6_2
  rw [View.canon_unit_zero hz]
  simp only [View.ld_unit_zero (S := S5000x128) hz]
  rw [iblk6_0_eq V c t, iblk6_1_eq V c t, oblk6_eq t]
  exact pay6_rows (rows6 t) (V c main_v70) (V c main_v26)

/-- An index of the output array is in point `t`'s block iff each coordinate is in the block's range. -/
theorem mem_blk6 (t : Fin cfg6.N) (i : S100000x128.Idx) :
    i ∈ ((cfg6.win 2).blk t).view.set ↔ ∀ a : Fin 2, win6_2.index t a * S5000x128.size a ≤ (i a).val ∧ (i a).val < win6_2.index t a * S5000x128.size a + S5000x128.size a := by
  show i ∈ ((View.whole main_v71).slice (win6_2.rect t)).set ↔ _
  rw [View.set_slice_whole, Rect.mem_set_unit]
  exact Iff.rfl

/-- The twenty blocks cover the output array: row r lies in block r / 5000. -/
theorem cover6 (i : S100000x128.Idx) : ∃ t : Fin cfg6.N, (cfg6.win 2).flush t = true ∧ i ∈ ((cfg6.win 2).blk t).view.set := by
  have hi0 : (i 0).val < 100000 := (i 0).isLt
  have hi1 : (i 1).val < 128 := (i 1).isLt
  obtain ⟨t, ht⟩ := idx_onto6 ⟨(i 0).val / 5000, by omega⟩
  have q0 : win6_2.index t (0 : Fin 2) = (i 0).val / 5000 := congrFun ht 0
  have q1 : win6_2.index t (1 : Fin 2) = 0 := congrFun ht 1
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 128 ≤ (i 1).val ∧ (i 1).val < win6_2.index t (1 : Fin 2) * 128 + 128; omega

/-- REGION 6: after its twenty points the output array is max(A, 0) + X0 of the arrays the region found. -/
theorem region6 (c : Dev nD) :
    (dat6 V c).arrAt 2 cfg6.N = rectified (V c main_v70) (V c main_v26) :=
  (dat6 V c).arrAt_eq_of_cover 2 _ (fun t _ => flushed6_eq V c t) (cover6)

/-! ## Region 7: a dense layer, blocks of 5000 rows of `main_v71` against the whole of `main_arg8` and `main_v25`, into `main_v72` -/

/-- The index maps over the grid: the row block of the input and of the output is the grid point's, every other
    block index is zero, and there are twenty row blocks. -/
theorem idx_facts7 : ∀ t : Fin cfg7.N, win7_0.index t (0 : Fin 2) = win7_3.index t (0 : Fin 2)
    ∧ win7_0.index t (1 : Fin 2) = 0 ∧ win7_3.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) ≤ 19 :=
  (by decide +kernel : ∀ t : Fin grid7.N, _)

/-- Every one of the twenty row blocks of the output is some grid point's. -/
theorem idx_onto7 : ∀ q : Fin 20, ∃ t : Fin cfg7.N, win7_3.index t = ![q.val, 0] :=
  (by decide +kernel : ∀ q : Fin 20, ∃ t : Fin grid7.N, win7_3.index t = ![q.val, 0])

/-- The rows of the whole matrix that grid point `t` works on: 5000 · (its row block) + p. -/
def rows7 (t : Fin cfg7.N) : Fin 5000 → Fin 100000 := fun p =>
  ⟨win7_3.index t (0 : Fin 2) * 5000 + p.val, by
    have h := (idx_facts7 t).2.2.2.2.2.2.2
    have hp := p.isLt
    omega⟩

/-- The input block at a point is the point's rows of the input matrix. -/
theorem iblk7_0_eq (c : Dev nD) (t : Fin cfg7.N) :
    (iblk7 V c 0 t : Vec Ideal S5000x128 .f32) = rowsOf (rows7 t) (V c main_v71) := by
  obtain ⟨e0, e1, -, -, -, -, -, -⟩ := idx_facts7 t
  funext j
  show V c main_v71 (((cfg7.win 0).blk t).view.emb j) = V c main_v71 (ix2 (rows7 t (j 0)) (j 1))
  refine congrArg (V c main_v71) ?_
  funext a; apply Fin.ext
  match a with
  | ⟨0, _⟩ => show win7_0.index t (0 : Fin 2) * 5000 + 1 * (j 0).val = win7_3.index t (0 : Fin 2) * 5000 + (j 0).val; omega
  | ⟨1, _⟩ => show win7_0.index t (1 : Fin 2) * 128 + 1 * (j 1).val = (j 1).val; omega

/-- The weight table's block is the whole table at every point. -/
theorem iblk7_1_eq (c : Dev nD) (t : Fin cfg7.N) : (iblk7 V c 1 t : Vec Ideal S128x40 .f32) = V c main_arg8 := by
  obtain ⟨-, -, -, e3, e4, -, -, -⟩ := idx_facts7 t
  funext j
  show V c main_arg8 (((cfg7.win 1).blk t).view.emb j) = V c main_arg8 j
  refine congrArg (V c main_arg8) ?_
  funext a; apply Fin.ext
  match a with
  | ⟨0, _⟩ => show win7_1.index t (0 : Fin 2) * 128 + 1 * (j 0).val = (j 0).val; omega
  | ⟨1, _⟩ => show win7_1.index t (1 : Fin 2) * 40 + 1 * (j 1).val = (j 1).val; omega

/-- The bias row's block is the whole row at every point. -/
theorem iblk7_2_eq (c : Dev nD) (t : Fin cfg7.N) : (iblk7 V c 2 t : Vec Ideal S1x40 .f32) = V c main_v25 := by
  obtain ⟨-, -, -, -, -, e5, e6, -⟩ := idx_facts7 t
  funext j
  show V c main_v25 (((cfg7.win 2).blk t).view.emb j) = V c main_v25 j
  refine congrArg (V c main_v25) ?_
  funext a; apply Fin.ext
  match a with
  | ⟨0, _⟩ => show win7_2.index t (0 : Fin 2) * 1 + 1 * (j 0).val = (j 0).val; omega
  | ⟨1, _⟩ => show win7_2.index t (1 : Fin 2) * 40 + 1 * (j 1).val = (j 1).val; omega

/-- The output's block of any whole matrix is the point's rows of it. -/
theorem oblk7_eq (t : Fin cfg7.N) (G : FVec Ideal S100000x40 .f32) :
    (((cfg7.win 3).blk t).view.read (Elt Ideal) G : Vec Ideal S5000x40 .f32) = rowsOf (rows7 t) G := by
  obtain ⟨-, -, e2, -, -, -, -, -⟩ := idx_facts7 t
  funext j
  show G (((cfg7.win 3).blk t).view.emb j) = G (ix2 (rows7 t (j 0)) (j 1))
  refine congrArg G ?_
  funext a; apply Fin.ext
  match a with
  | ⟨0, _⟩ => show win7_3.index t (0 : Fin 2) * 5000 + 1 * (j 0).val = win7_3.index t (0 : Fin 2) * 5000 + (j 0).val; omega
  | ⟨1, _⟩ => show win7_3.index t (1 : Fin 2) * 40 + 1 * (j 1).val = (j 1).val; omega

/-- What point `t` writes back is its block of the host's layer on the whole arrays. -/
theorem flushed7_eq (c : Dev nD) (t : Fin cfg7.N) :
    (dat7 V c).flushed 3 t
      = ((cfg7.win 3).blk t).view.read (Elt Ideal) (layer40 (V c main_v71) (V c main_arg8) (V c main_v25)) := by
  show (cfg7.win 3).cut (grid7.coords t) ((dat7 V c).after 3 t) = _
  rw [after7_3]
  unfold out7_3
  rw [View.canon_unit_zero hz]
  simp only [View.ld_unit_zero (S := S5000x128) hz, View.ld_unit_zero (S := S128x40) hz, View.ld_unit_zero (S := S1x40) hz]
  rw [iblk7_0_eq V c t, iblk7_1_eq V c t, iblk7_2_eq V c t, oblk7_eq t]
  exact pay7_rows (rows7 t) (V c main_v71) (V c main_arg8) (V c main_v25)

/-- An index of the output array is in point `t`'s block iff each coordinate is in the block's range. -/
theorem mem_blk7 (t : Fin cfg7.N) (i : S100000x40.Idx) :
    i ∈ ((cfg7.win 3).blk t).view.set ↔ ∀ a : Fin 2, win7_3.index t a * S5000x40.size a ≤ (i a).val ∧ (i a).val < win7_3.index t a * S5000x40.size a + S5000x40.size a := by
  show i ∈ ((View.whole main_v72).slice (win7_3.rect t)).set ↔ _
  rw [View.set_slice_whole, Rect.mem_set_unit]
  exact Iff.rfl

/-- The twenty blocks cover the output array: row r lies in block r / 5000. -/
theorem cover7 (i : S100000x40.Idx) : ∃ t : Fin cfg7.N, (cfg7.win 3).flush t = true ∧ i ∈ ((cfg7.win 3).blk t).view.set := by
  have hi0 : (i 0).val < 100000 := (i 0).isLt
  have hi1 : (i 1).val < 40 := (i 1).isLt
  obtain ⟨t, ht⟩ := idx_onto7 ⟨(i 0).val / 5000, by omega⟩
  have q0 : win7_3.index t (0 : Fin 2) = (i 0).val / 5000 := congrFun ht 0
  have q1 : win7_3.index t (1 : Fin 2) = 0 := congrFun ht 1
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 40 ≤ (i 1).val ∧ (i 1).val < win7_3.index t (1 : Fin 2) * 40 + 40; omega

/-- REGION 7: after its twenty points the output array is the host's layer on the arrays the region found. -/
theorem region7 (c : Dev nD) :
    (dat7 V c).arrAt 3 cfg7.N = layer40 (V c main_v71) (V c main_arg8) (V c main_v25) :=
  (dat7 V c).arrAt_eq_of_cover 3 _ (fun t _ => flushed7_eq V c t) (cover7)

end Cert.KernelIdeal.Regions

end
-- ==== Proof.Spec.lean ====
/-
  The network the kernel's program computes, as pure functions of its nine argument arrays.

  Edges: the 1600000 given (source, target) pairs followed by one loop per node, 1700000 in all.  A node's degree is
  the number of edges that point at it; an edge's weight is 1/sqrt(deg(source) · deg(target)), both indices read
  with the host's wrap-around of negative numbers.  One propagation step gathers the source rows of a table,
  scales each by its edge's weight and sums them into the target rows.  The network is

      X0 = X·Wt + bt,   H1 = max(agg(X·W0), 0) + X0,   H2 = max(agg(H1·W1), 0) + X0,
      H3 = max(agg(H2·W2), 0) + X0,   out = agg(H3·W3).

  The gather, the scatter-add and the index arithmetic are the host's own operations on both sides of the claim, so
  they are carried here as they are printed and never opened.
-/
import proofs.«131371_j64665027609332_1_alg».proof.Proof.Blocks

noncomputable section

namespace Cert.KernelIdeal.Spec

open Idealize.ShloMosaic Cert.KernelIdeal Cert.KernelIdeal.Blocks Cert.BlockRows
open Cert.KernelIdeal.Facts₀ Cert.KernelIdeal.Facts

/-- The contents of a buffer of shape `s` and element type `e` on the extended reals. -/
abbrev C (s : Shape) (e : EltTy) : Type := (⟨s, e⟩ : BufTy).Contents (Elt Ideal)

/-- The given edge ends followed by one loop per node: 0, 1, …, 99999. -/
def withLoops (a : C S1600000 .i32) : C S1700000 .i32 :=
  concatenate S1700000 0 [⟨S1600000, a⟩, ⟨S100000, iotaInDim S100000 32 0⟩] concatenates_S1600000_S100000_S1700000_d0

/-- Node numbers as a gather reads them: a negative number has 100000 added; laid as a column of index vectors. -/
def wrapped (v : C S1700000 .i32) : C S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Node numbers as a scatter reads them: laid as a column of index vectors. -/
def column (v : C S1700000 .i32) : C S1700000x1 .i32 :=
  broadcastInDim S1700000x1 ![0] bcast_S1700000_S1700000x1_0 v

/-- A node's degree: the ones of all edges summed into their target nodes. -/
def degree (d : C S1700000 .i32) : C S100000 .f32 :=
  Host.scatterAdd (F := Ideal) scatter_S100000_S1700000x1_S1700000_n_0_0_1
    (broadcastInDim S100000 ![] bcast_S_S100000 (constant (F := Ideal) S_ .f32 0x00000000#32)) (column d)
    (broadcastInDim S1700000 ![] bcast_S_S1700000 (constant (F := Ideal) S_ .f32 0x3F800000#32))

/-- An edge's weight: the reciprocal square root of the product of its two ends' degrees. -/
def edgeWeight (s d : C S1700000 .i32) : C S1700000 .f32 :=
  Host.rsqrt (F := Ideal) (φ := .f32) (mulf (F := Ideal) (φ := .f32) (Host.gather gather_S100000_S1700000x1_S1700000_n_0_n_n_0_1_1 (degree d) (wrapped s))
    (Host.gather gather_S100000_S1700000x1_S1700000_n_0_n_n_0_1_1 (degree d) (wrapped d)))

/-- One propagation step on a table of 128 columns: gather the source rows, scale by the weights, sum into the targets. -/
def propagate128 (s d : C S1700000 .i32) (w : C S1700000 .f32) (h : C S100000x128 .f32) : C S100000x128 .f32 :=
  Host.scatterAdd (F := Ideal) scatter_S100000x128_S1700000x1_S1700000x128_1_0_0_1
    (broadcastInDim S100000x128 ![] bcast_S_S100000x128 (constant (F := Ideal) S_ .f32 0x00000000#32)) (column d)
    (mulf (F := Ideal) (φ := .f32) (Host.gather gather_S100000x128_S1700000x1_S1700000x128_1_0_n_n_0_1_1128 h (wrapped s))
      (broadcastInDim S1700000x128 ![0, 1] bcast_S1700000x1_S1700000x128_0_1
        (broadcastInDim S1700000x1 ![0] bcast_S1700000_S1700000x1_0 w)))

/-- The same step on a table of 40 columns. -/
def propagate40 (s d : C S1700000 .i32) (w : C S1700000 .f32) (h : C S100000x40 .f32) : C S100000x40 .f32 :=
  Host.scatterAdd (F := Ideal) scatter_S100000x40_S1700000x1_S1700000x40_1_0_0_1
    (broadcastInDim S100000x40 ![] bcast_S_S100000x40 (constant (F := Ideal) S_ .f32 0x00000000#32)) (column d)
    (mulf (F := Ideal) (φ := .f32) (Host.gather gather_S100000x40_S1700000x1_S1700000x40_1_0_n_n_0_1_140 h (wrapped s))
      (broadcastInDim S1700000x40 ![0, 1] bcast_S1700000x1_S1700000x40_0_1
        (broadcastInDim S1700000x1 ![0] bcast_S1700000_S1700000x1_0 w)))

/-- The all-zero bias row of a layer without bias, 128 and 40 columns. -/
def zeroRow128 : C S1x128 .f32 := broadcastInDim S1x128 ![] bcast_S_S1x128 (constant (F := Ideal) S_ .f32 0x00000000#32)
def zeroRow40 : C S1x40 .f32 := broadcastInDim S1x40 ![] bcast_S_S1x40 (constant (F := Ideal) S_ .f32 0x00000000#32)

/-- The bias vector laid as one row. -/
def biasRow (bt : C S128 .f32) : C S1x128 .f32 := shapeCast S1x128 bt shapeCasts_S128_S1x128

/-- The whole network, as the kernel's program spells its layers (every dense layer with a bias row). -/
def network (x : C S100000x128 .f32) (src dst : C S1600000 .i32) (wt : C S128x128 .f32) (bt : C S128 .f32)
    (w0 w1 w2 : C S128x128 .f32) (w3 : C S128x40 .f32) : C S100000x40 .f32 :=
  let s := withLoops src
  let d := withLoops dst
  let w := edgeWeight s d
  let x0 := layer128 x wt (biasRow bt)
  let h1 := rectified (propagate128 s d w (layer128 x w0 zeroRow128)) x0
  let h2 := rectified (propagate128 s d w (layer128 h1 w1 zeroRow128)) x0
  let h3 := rectified (propagate128 s d w (layer128 h2 w2 zeroRow128)) x0
  propagate40 s d w (layer40 h3 w3 zeroRow40)

end Cert.KernelIdeal.Spec

end
-- ==== Proof.Fold.lean ====
/-
  The boundary contents of the kernel's program, read one segment at a time.

  The thirteen segments leave, at each boundary, buffer contents W1 … W13 folded from the launch memory.  A region
  changes only its result array, and there it leaves the whole-array function of the region's operands (the dense
  layer or the rectifier with residual); a stretch of host operations changes only the buffers it writes, and there
  it leaves the operations' own functions of the buffers they read.  Reading the fold at the buffers the network
  passes through therefore walks the network layer by layer, and the last boundary's result buffer holds the whole
  network of the nine launch arrays.
-/
import proofs.«131371_j64665027609332_1_alg».proof.Proof.Regions
import proofs.«131371_j64665027609332_1_alg».proof.Proof.Spec
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Idealize.ShloMosaic.Pipeline (Dat Cfg Window)
open Cert.KernelIdeal Cert.KernelIdeal.Gen Cert.KernelIdeal.Regions Cert.KernelIdeal.Blocks Cert.KernelIdeal.Spec Cert.BlockRows

variable (m : (ℓ : Loc nD τ sig) → Buf (Elt Ideal) ℓ) (ρ : Dev nD → PrngReg) (c : Dev nD)

/-! ## A region changes its result array only -/

/-- Region 0 changes its result array `main_v26` only: every other buffer leaves it as it entered (an input array is
    read, never written; a buffer outside the region's arrays is not touched). -/
theorem step0 (b : Ref sig .tc) (hb : b ≠ main_v26) :
    W2 m ρ c (Proc.devRef .tc b) = W1 m ρ c (Proc.devRef .tc b) := by
  by_cases h : ∀ w, Pipeline.arrRef spec0 w ≠ b
  · exact W2_of_ne m ρ c b h
  · obtain ⟨w, hw⟩ := not_forall.mp h
    have hw' : Pipeline.arrRef spec0 w = b := not_not.mp hw
    subst hw'
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, _ => exact (W2_arr m ρ c 2).trans (((dat0 (V1 m ρ) c).arrAt_in 2 rfl _).trans (A_eq0 (V1 m ρ) c 2))
    | ⟨3, _⟩, hb => exact absurd rfl hb

/-- Region 1 changes its result array `main_v27` only: every other buffer leaves it as it entered (an input array is
    read, never written; a buffer outside the region's arrays is not touched). -/
theorem step1 (b : Ref sig .tc) (hb : b ≠ main_v27) :
    W3 m ρ c (Proc.devRef .tc b) = W2 m ρ c (Proc.devRef .tc b) := by
  by_cases h : ∀ w, Pipeline.arrRef spec1 w ≠ b
  · exact W3_of_ne m ρ c b h
  · obtain ⟨w, hw⟩ := not_forall.mp h
    have hw' : Pipeline.arrRef spec1 w = b := not_not.mp hw
    subst hw'
    match w, hb with
    | ⟨0, _⟩, _ => exact (W3_arr m ρ c 0).trans (((dat1 (V2 m ρ) c).arrAt_in 0 rfl _).trans (A_eq1 (V2 m ρ) c 0))
    | ⟨1, _⟩, _ => exact (W3_arr m ρ c 1).trans (((dat1 (V2 m ρ) c).arrAt_in 1 rfl _).trans (A_eq1 (V2 m ρ) c 1))
    | ⟨2, _⟩, _ => exact (W3_arr m ρ c 2).trans (((dat1 (V2 m ρ) c).arrAt_in 2 rfl _).trans (A_eq1 (V2 m ρ) c 2))
    | ⟨3, _⟩, hb => exact absurd rfl hb

/-- Region 2 changes its result array `main_v41` only. -/
theorem step2 (b : Ref sig .tc) (hb : b ≠ main_v41) :
    W5 m ρ c (Proc.devRef .tc b) = W4 m ρ c (Proc.devRef .tc b) := by
  by_cases h : ∀ w, Pipeline.arrRef spec2 w ≠ b
  · exact W5_of_ne m ρ c b h
  · obtain ⟨w, hw⟩ := not_forall.mp h
    have hw' : Pipeline.arrRef spec2 w = b := not_not.mp hw
    subst hw'
    match w, hb with
    | ⟨0, _⟩, _ => exact (W5_arr m ρ c 0).trans (((dat2 (V4 m ρ) c).arrAt_in 0 rfl _).trans (A_eq2 (V4 m ρ) c 0))
    | ⟨1, _⟩, _ => exact (W5_arr m ρ c 1).trans (((dat2 (V4 m ρ) c).arrAt_in 1 rfl _).trans (A_eq2 (V4 m ρ) c 1))
    | ⟨2, _⟩, hb => exact absurd rfl hb

/-- Region 3 changes its result array `main_v42` only: every other buffer leaves it as it entered (an input array is
    read, never written; a buffer outside the region's arrays is not touched). -/
theorem step3 (b : Ref sig .tc) (hb : b ≠ main_v42) :
    W6 m ρ c (Proc.devRef .tc b) = W5 m ρ c (Proc.devRef .tc b) := by
  by_cases h : ∀ w, Pipeline.arrRef spec3 w ≠ b
  · exact W6_of_ne m ρ c b h
  · obtain ⟨w, hw⟩ := not_forall.mp h
    have hw' : Pipeline.arrRef spec3 w = b := not_not.mp hw
    subst hw'
    match w, hb with
    | ⟨0, _⟩, _ => exact (W6_arr m ρ c 0).trans (((dat3 (V5 m ρ) c).arrAt_in 0 rfl _).trans (A_eq3 (V5 m ρ) c 0))
    | ⟨1, _⟩, _ => exact (W6_arr m ρ c 1).trans (((dat3 (V5 m ρ) c).arrAt_in 1 rfl _).trans (A_eq3 (V5 m ρ) c 1))
    | ⟨2, _⟩, _ => exact (W6_arr m ρ c 2).trans (((dat3 (V5 m ρ) c).arrAt_in 2 rfl _).trans (A_eq3 (V5 m ρ) c 2))
    | ⟨3, _⟩, hb => exact absurd rfl hb

/-- Region 4 changes its result array `main_v56` only. -/
theorem step4 (b : Ref sig .tc) (hb : b ≠ main_v56) :
    W8 m ρ c (Proc.devRef .tc b) = W7 m ρ c (Proc.devRef .tc b) := by
  by_cases h : ∀ w, Pipeline.arrRef spec4 w ≠ b
  · exact W8_of_ne m ρ c b h
  · obtain ⟨w, hw⟩ := not_forall.mp h
    have hw' : Pipeline.arrRef spec4 w = b := not_not.mp hw
    subst hw'
    match w, hb with
    | ⟨0, _⟩, _ => exact (W8_arr m ρ c 0).trans (((dat4 (V7 m ρ) c).arrAt_in 0 rfl _).trans (A_eq4 (V7 m ρ) c 0))
    | ⟨1, _⟩, _ => exact (W8_arr m ρ c 1).trans (((dat4 (V7 m ρ) c).arrAt_in 1 rfl _).trans (A_eq4 (V7 m ρ) c 1))
    | ⟨2, _⟩, hb => exact absurd rfl hb

/-- Region 5 changes its result array `main_v57` only: every other buffer leaves it as it entered (an input array is
    read, never written; a buffer outside the region's arrays is not touched). -/
theorem step5 (b : Ref sig .tc) (hb : b ≠ main_v57) :
    W9 m ρ c (Proc.devRef .tc b) = W8 m ρ c (Proc.devRef .tc b) := by
  by_cases h : ∀ w, Pipeline.arrRef spec5 w ≠ b
  · exact W9_of_ne m ρ c b h
  · obtain ⟨w, hw⟩ := not_forall.mp h
    have hw' : Pipeline.arrRef spec5 w = b := not_not.mp hw
    subst hw'
    match w, hb with
    | ⟨0, _⟩, _ => exact (W9_arr m ρ c 0).trans (((dat5 (V8 m ρ) c).arrAt_in 0 rfl _).trans (A_eq5 (V8 m ρ) c 0))
    | ⟨1, _⟩, _ => exact (W9_arr m ρ c 1).trans (((dat5 (V8 m ρ) c).arrAt_in 1 rfl _).trans (A_eq5 (V8 m ρ) c 1))
    | ⟨2, _⟩, _ => exact (W9_arr m ρ c 2).trans (((dat5 (V8 m ρ) c).arrAt_in 2 rfl _).trans (A_eq5 (V8 m ρ) c 2))
    | ⟨3, _⟩, hb => exact absurd rfl hb

/-- Region 6 changes its result array `main_v71` only. -/
theorem step6 (b : Ref sig .tc) (hb : b ≠ main_v71) :
    W11 m ρ c (Proc.devRef .tc b) = W10 m ρ c (Proc.devRef .tc b) := by
  by_cases h : ∀ w, Pipeline.arrRef spec6 w ≠ b
  · exact W11_of_ne m ρ c b h
  · obtain ⟨w, hw⟩ := not_forall.mp h
    have hw' : Pipeline.arrRef spec6 w = b := not_not.mp hw
    subst hw'
    match w, hb with
    | ⟨0, _⟩, _ => exact (W11_arr m ρ c 0).trans (((dat6 (V10 m ρ) c).arrAt_in 0 rfl _).trans (A_eq6 (V10 m ρ) c 0))
    | ⟨1, _⟩, _ => exact (W11_arr m ρ c 1).trans (((dat6 (V10 m ρ) c).arrAt_in 1 rfl _).trans (A_eq6 (V10 m ρ) c 1))
    | ⟨2, _⟩, hb => exact absurd rfl hb

/-- Region 7 changes its result array `main_v72` only: every other buffer leaves it as it entered (an input array is
    read, never written; a buffer outside the region's arrays is not touched). -/
theorem step7 (b : Ref sig .tc) (hb : b ≠ main_v72) :
    W12 m ρ c (Proc.devRef .tc b) = W11 m ρ c (Proc.devRef .tc b) := by
  by_cases h : ∀ w, Pipeline.arrRef spec7 w ≠ b
  · exact W12_of_ne m ρ c b h
  · obtain ⟨w, hw⟩ := not_forall.mp h
    have hw' : Pipeline.arrRef spec7 w = b := not_not.mp hw
    subst hw'
    match w, hb with
    | ⟨0, _⟩, _ => exact (W12_arr m ρ c 0).trans (((dat7 (V11 m ρ) c).arrAt_in 0 rfl _).trans (A_eq7 (V11 m ρ) c 0))
    | ⟨1, _⟩, _ => exact (W12_arr m ρ c 1).trans (((dat7 (V11 m ρ) c).arrAt_in 1 rfl _).trans (A_eq7 (V11 m ρ) c 1))
    | ⟨2, _⟩, _ => exact (W12_arr m ρ c 2).trans (((dat7 (V11 m ρ) c).arrAt_in 2 rfl _).trans (A_eq7 (V11 m ρ) c 2))
    | ⟨3, _⟩, hb => exact absurd rfl hb

/-! ## A stretch of host operations changes only what it writes -/

/-- A buffer that no operation of the stretch writes keeps its contents: the stretch's operations are listed, and the
    buffer differs from each one's result buffer. -/
macro "keep_through" ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))
theorem k1_arg0 : W1 m ρ c (Proc.devRef .tc main_arg0) = W0 m ρ c (Proc.devRef .tc main_arg0) := by keep_through hostOps0
theorem k1_arg3 : W1 m ρ c (Proc.devRef .tc main_arg3) = W0 m ρ c (Proc.devRef .tc main_arg3) := by keep_through hostOps0
theorem k1_arg5 : W1 m ρ c (Proc.devRef .tc main_arg5) = W0 m ρ c (Proc.devRef .tc main_arg5) := by keep_through hostOps0
theorem k1_arg6 : W1 m ρ c (Proc.devRef .tc main_arg6) = W0 m ρ c (Proc.devRef .tc main_arg6) := by keep_through hostOps0
theorem k1_arg7 : W1 m ρ c (Proc.devRef .tc main_arg7) = W0 m ρ c (Proc.devRef .tc main_arg7) := by keep_through hostOps0
theorem k1_arg8 : W1 m ρ c (Proc.devRef .tc main_arg8) = W0 m ρ c (Proc.devRef .tc main_arg8) := by keep_through hostOps0
theorem k4_v1 : W4 m ρ c (Proc.devRef .tc main_v1) = W3 m ρ c (Proc.devRef .tc main_v1) := by keep_through hostOps2
theorem k4_v2 : W4 m ρ c (Proc.devRef .tc main_v2) = W3 m ρ c (Proc.devRef .tc main_v2) := by keep_through hostOps2
theorem k4_v22 : W4 m ρ c (Proc.devRef .tc main_v22) = W3 m ρ c (Proc.devRef .tc main_v22) := by keep_through hostOps2
theorem k4_v24 : W4 m ρ c (Proc.devRef .tc main_v24) = W3 m ρ c (Proc.devRef .tc main_v24) := by keep_through hostOps2
theorem k4_v25 : W4 m ρ c (Proc.devRef .tc main_v25) = W3 m ρ c (Proc.devRef .tc main_v25) := by keep_through hostOps2
theorem k4_v26 : W4 m ρ c (Proc.devRef .tc main_v26) = W3 m ρ c (Proc.devRef .tc main_v26) := by keep_through hostOps2
theorem k4_arg6 : W4 m ρ c (Proc.devRef .tc main_arg6) = W3 m ρ c (Proc.devRef .tc main_arg6) := by keep_through hostOps2
theorem k4_arg7 : W4 m ρ c (Proc.devRef .tc main_arg7) = W3 m ρ c (Proc.devRef .tc main_arg7) := by keep_through hostOps2
theorem k4_arg8 : W4 m ρ c (Proc.devRef .tc main_arg8) = W3 m ρ c (Proc.devRef .tc main_arg8) := by keep_through hostOps2
theorem k7_v1 : W7 m ρ c (Proc.devRef .tc main_v1) = W6 m ρ c (Proc.devRef .tc main_v1) := by keep_through hostOps4
theorem k7_v2 : W7 m ρ c (Proc.devRef .tc main_v2) = W6 m ρ c (Proc.devRef .tc main_v2) := by keep_through hostOps4
theorem k7_v22 : W7 m ρ c (Proc.devRef .tc main_v22) = W6 m ρ c (Proc.devRef .tc main_v22) := by keep_through hostOps4
theorem k7_v24 : W7 m ρ c (Proc.devRef .tc main_v24) = W6 m ρ c (Proc.devRef .tc main_v24) := by keep_through hostOps4
theorem k7_v25 : W7 m ρ c (Proc.devRef .tc main_v25) = W6 m ρ c (Proc.devRef .tc main_v25) := by keep_through hostOps4
theorem k7_v26 : W7 m ρ c (Proc.devRef .tc main_v26) = W6 m ρ c (Proc.devRef .tc main_v26) := by keep_through hostOps4
theorem k7_arg7 : W7 m ρ c (Proc.devRef .tc main_arg7) = W6 m ρ c (Proc.devRef .tc main_arg7) := by keep_through hostOps4
theorem k7_arg8 : W7 m ρ c (Proc.devRef .tc main_arg8) = W6 m ρ c (Proc.devRef .tc main_arg8) := by keep_through hostOps4
theorem k10_v1 : W10 m ρ c (Proc.devRef .tc main_v1) = W9 m ρ c (Proc.devRef .tc main_v1) := by keep_through hostOps6
theorem k10_v2 : W10 m ρ c (Proc.devRef .tc main_v2) = W9 m ρ c (Proc.devRef .tc main_v2) := by keep_through hostOps6
theorem k10_v22 : W10 m ρ c (Proc.devRef .tc main_v22) = W9 m ρ c (Proc.devRef .tc main_v22) := by keep_through hostOps6
theorem k10_v25 : W10 m ρ c (Proc.devRef .tc main_v25) = W9 m ρ c (Proc.devRef .tc main_v25) := by keep_through hostOps6
theorem k10_v26 : W10 m ρ c (Proc.devRef .tc main_v26) = W9 m ρ c (Proc.devRef .tc main_v26) := by keep_through hostOps6
theorem k10_arg8 : W10 m ρ c (Proc.devRef .tc main_arg8) = W9 m ρ c (Proc.devRef .tc main_arg8) := by keep_through hostOps6

/-! ## The buffers that pass through every region -/

/-- A buffer that is no region's result array. -/
structure Passes (b : Ref sig .tc) : Prop where
  n26 : b ≠ main_v26
  n27 : b ≠ main_v27
  n41 : b ≠ main_v41
  n42 : b ≠ main_v42
  n56 : b ≠ main_v56
  n57 : b ≠ main_v57
  n71 : b ≠ main_v71
  n72 : b ≠ main_v72

theorem passes_v1 : Passes main_v1 := ⟨by decide, by decide, by decide, by decide, by decide, by decide, by decide, by decide⟩
theorem passes_v2 : Passes main_v2 := ⟨by decide, by decide, by decide, by decide, by decide, by decide, by decide, by decide⟩
theorem passes_v22 : Passes main_v22 := ⟨by decide, by decide, by decide, by decide, by decide, by decide, by decide, by decide⟩
theorem passes_v24 : Passes main_v24 := ⟨by decide, by decide, by decide, by decide, by decide, by decide, by decide, by decide⟩
theorem passes_v25 : Passes main_v25 := ⟨by decide, by decide, by decide, by decide, by decide, by decide, by decide, by decide⟩
theorem passes_arg0 : Passes main_arg0 := ⟨by decide, by decide, by decide, by decide, by decide, by decide, by decide, by decide⟩
theorem passes_arg5 : Passes main_arg5 := ⟨by decide, by decide, by decide, by decide, by decide, by decide, by decide, by decide⟩
theorem passes_arg6 : Passes main_arg6 := ⟨by decide, by decide, by decide, by decide, by decide, by decide, by decide, by decide⟩
theorem passes_arg7 : Passes main_arg7 := ⟨by decide, by decide, by decide, by decide, by decide, by decide, by decide, by decide⟩
theorem passes_arg8 : Passes main_arg8 := ⟨by decide, by decide, by decide, by decide, by decide, by decide, by decide, by decide⟩

section Carry

/-- Such a buffer holds at every later boundary what it held after the first stretch, given that the stretches of host
    operations in between do not write it. -/
theorem at2 (b : Ref sig .tc) (p : Passes b) : W2 m ρ c (Proc.devRef .tc b) = W1 m ρ c (Proc.devRef .tc b) := step0 m ρ c b p.n26
theorem at3 (b : Ref sig .tc) (p : Passes b) : W3 m ρ c (Proc.devRef .tc b) = W1 m ρ c (Proc.devRef .tc b) := (step1 m ρ c b p.n27).trans (at2 m ρ c b p)
theorem at5 (b : Ref sig .tc) (p : Passes b) (k4 : W4 m ρ c (Proc.devRef .tc b) = W3 m ρ c (Proc.devRef .tc b)) :
    W5 m ρ c (Proc.devRef .tc b) = W1 m ρ c (Proc.devRef .tc b) := (step2 m ρ c b p.n41).trans (k4.trans (at3 m ρ c b p))
theorem at6 (b : Ref sig .tc) (p : Passes b) (k4 : W4 m ρ c (Proc.devRef .tc b) = W3 m ρ c (Proc.devRef .tc b)) :
    W6 m ρ c (Proc.devRef .tc b) = W1 m ρ c (Proc.devRef .tc b) := (step3 m ρ c b p.n42).trans (at5 m ρ c b p k4)
theorem at8 (b : Ref sig .tc) (p : Passes b) (k4 : W4 m ρ c (Proc.devRef .tc b) = W3 m ρ c (Proc.devRef .tc b))
    (k7 : W7 m ρ c (Proc.devRef .tc b) = W6 m ρ c (Proc.devRef .tc b)) :
    W8 m ρ c (Proc.devRef .tc b) = W1 m ρ c (Proc.devRef .tc b) := (step4 m ρ c b p.n56).trans (k7.trans (at6 m ρ c b p k4))
theorem at9 (b : Ref sig .tc) (p : Passes b) (k4 : W4 m ρ c (Proc.devRef .tc b) = W3 m ρ c (Proc.devRef .tc b))
    (k7 : W7 m ρ c (Proc.devRef .tc b) = W6 m ρ c (Proc.devRef .tc b)) :
    W9 m ρ c (Proc.devRef .tc b) = W1 m ρ c (Proc.devRef .tc b) := (step5 m ρ c b p.n57).trans (at8 m ρ c b p k4 k7)
theorem at11 (b : Ref sig .tc) (p : Passes b) (k4 : W4 m ρ c (Proc.devRef .tc b) = W3 m ρ c (Proc.devRef .tc b))
    (k7 : W7 m ρ c (Proc.devRef .tc b) = W6 m ρ c (Proc.devRef .tc b))
    (k10 : W10 m ρ c (Proc.devRef .tc b) = W9 m ρ c (Proc.devRef .tc b)) :
    W11 m ρ c (Proc.devRef .tc b) = W1 m ρ c (Proc.devRef .tc b) := (step6 m ρ c b p.n71).trans (k10.trans (at9 m ρ c b p k4 k7))
theorem at12 (b : Ref sig .tc) (p : Passes b) (k4 : W4 m ρ c (Proc.devRef .tc b) = W3 m ρ c (Proc.devRef .tc b))
    (k7 : W7 m ρ c (Proc.devRef .tc b) = W6 m ρ c (Proc.devRef .tc b))
    (k10 : W10 m ρ c (Proc.devRef .tc b) = W9 m ρ c (Proc.devRef .tc b)) :
    W12 m ρ c (Proc.devRef .tc b) = W1 m ρ c (Proc.devRef .tc b) := (step7 m ρ c b p.n72).trans (at11 m ρ c b p k4 k7 k10)
end Carry

/-- The residual anchor's array (region 0's result) is read by the three rectifier regions and written by nothing after. -/
theorem v26_at4 : W4 m ρ c (Proc.devRef .tc main_v26) = W2 m ρ c (Proc.devRef .tc main_v26) :=
  (k4_v26 m ρ c).trans (step1 m ρ c main_v26 (by decide))
theorem v26_at7 : W7 m ρ c (Proc.devRef .tc main_v26) = W2 m ρ c (Proc.devRef .tc main_v26) :=
  (k7_v26 m ρ c).trans ((step3 m ρ c main_v26 (by decide)).trans ((step2 m ρ c main_v26 (by decide)).trans (v26_at4 m ρ c)))
theorem v26_at10 : W10 m ρ c (Proc.devRef .tc main_v26) = W2 m ρ c (Proc.devRef .tc main_v26) :=
  (k10_v26 m ρ c).trans ((step5 m ρ c main_v26 (by decide)).trans ((step4 m ρ c main_v26 (by decide)).trans (v26_at7 m ρ c)))

/-! ## What the first stretch leaves -/

theorem w1_v1 : W1 m ρ c (Proc.devRef .tc main_v1) = withLoops (m ((c : Thread nD τ).loc main_arg1)) := by
  show StableHlo.after hostOps0 (W0 m ρ c) (Proc.devRef .tc main_v1) = _
  after_results_simp
  rfl
theorem w1_v2 : W1 m ρ c (Proc.devRef .tc main_v2) = withLoops (m ((c : Thread nD τ).loc main_arg2)) := by
  show StableHlo.after hostOps0 (W0 m ρ c) (Proc.devRef .tc main_v2) = _
  after_results_simp
  rfl
theorem w1_v22 : W1 m ρ c (Proc.devRef .tc main_v22) = edgeWeight (withLoops (m ((c : Thread nD τ).loc main_arg1))) (withLoops (m ((c : Thread nD τ).loc main_arg2))) := by
  show StableHlo.after hostOps0 (W0 m ρ c) (Proc.devRef .tc main_v22) = _
  after_results_simp
  rfl
theorem w1_v23 : W1 m ρ c (Proc.devRef .tc main_v23) = biasRow (m ((c : Thread nD τ).loc main_arg4)) := by
  show StableHlo.after hostOps0 (W0 m ρ c) (Proc.devRef .tc main_v23) = _
  after_results_simp
  rfl
theorem w1_v24 : W1 m ρ c (Proc.devRef .tc main_v24) = zeroRow128 := by
  show StableHlo.after hostOps0 (W0 m ρ c) (Proc.devRef .tc main_v24) = _
  after_results_simp
  rfl
theorem w1_v25 : W1 m ρ c (Proc.devRef .tc main_v25) = zeroRow40 := by
  show StableHlo.after hostOps0 (W0 m ρ c) (Proc.devRef .tc main_v25) = _
  after_results_simp
  rfl
theorem w1_arg0 : W1 m ρ c (Proc.devRef .tc main_arg0) = m ((c : Thread nD τ).loc main_arg0) := (k1_arg0 m ρ c).trans rfl
theorem w1_arg3 : W1 m ρ c (Proc.devRef .tc main_arg3) = m ((c : Thread nD τ).loc main_arg3) := (k1_arg3 m ρ c).trans rfl
theorem w1_arg5 : W1 m ρ c (Proc.devRef .tc main_arg5) = m ((c : Thread nD τ).loc main_arg5) := (k1_arg5 m ρ c).trans rfl
theorem w1_arg6 : W1 m ρ c (Proc.devRef .tc main_arg6) = m ((c : Thread nD τ).loc main_arg6) := (k1_arg6 m ρ c).trans rfl
theorem w1_arg7 : W1 m ρ c (Proc.devRef .tc main_arg7) = m ((c : Thread nD τ).loc main_arg7) := (k1_arg7 m ρ c).trans rfl
theorem w1_arg8 : W1 m ρ c (Proc.devRef .tc main_arg8) = m ((c : Thread nD τ).loc main_arg8) := (k1_arg8 m ρ c).trans rfl

/-! ## The values the network passes through, as functions of the launch arrays -/

def src : C S1700000 .i32 := withLoops (m ((c : Thread nD τ).loc main_arg1))
def dst : C S1700000 .i32 := withLoops (m ((c : Thread nD τ).loc main_arg2))
def wgt : C S1700000 .f32 := edgeWeight (src m c) (dst m c)
def x0 : C S100000x128 .f32 := layer128 (m ((c : Thread nD τ).loc main_arg0)) (m ((c : Thread nD τ).loc main_arg3)) (biasRow (m ((c : Thread nD τ).loc main_arg4)))
def p0 : C S100000x128 .f32 := layer128 (m ((c : Thread nD τ).loc main_arg0)) (m ((c : Thread nD τ).loc main_arg5)) zeroRow128
def g0 : C S100000x128 .f32 := propagate128 (src m c) (dst m c) (wgt m c) (p0 m c)
def h1 : C S100000x128 .f32 := rectified (g0 m c) (x0 m c)
def p1 : C S100000x128 .f32 := layer128 (h1 m c) (m ((c : Thread nD τ).loc main_arg6)) zeroRow128
def g1 : C S100000x128 .f32 := propagate128 (src m c) (dst m c) (wgt m c) (p1 m c)
def h2 : C S100000x128 .f32 := rectified (g1 m c) (x0 m c)
def p2 : C S100000x128 .f32 := layer128 (h2 m c) (m ((c : Thread nD τ).loc main_arg7)) zeroRow128
def g2 : C S100000x128 .f32 := propagate128 (src m c) (dst m c) (wgt m c) (p2 m c)
def h3 : C S100000x128 .f32 := rectified (g2 m c) (x0 m c)
def p3 : C S100000x40 .f32 := layer40 (h3 m c) (m ((c : Thread nD τ).loc main_arg8)) zeroRow40
def out : C S100000x40 .f32 := propagate40 (src m c) (dst m c) (wgt m c) (p3 m c)

theorem layer128_congr {X X' : FVec Ideal S100000x128 .f32} {W W' : FVec Ideal S128x128 .f32} {B B' : FVec Ideal S1x128 .f32}
    (hX : X = X') (hW : W = W') (hB : B = B') : layer128 X W B = layer128 X' W' B' := by subst hX hW hB; rfl
theorem layer40_congr {X X' : FVec Ideal S100000x128 .f32} {W W' : FVec Ideal S128x40 .f32} {B B' : FVec Ideal S1x40 .f32}
    (hX : X = X') (hW : W = W') (hB : B = B') : layer40 X W B = layer40 X' W' B' := by subst hX hW hB; rfl
theorem rectified_congr {A A' X X' : FVec Ideal S100000x128 .f32} (hA : A = A') (hX : X = X') :
    rectified A X = rectified A' X' := by subst hA hX; rfl

/-! ## Layer by layer -/

/-- Region 0 leaves the residual anchor X·Wt + bt. -/
theorem w2_v26 : W2 m ρ c (Proc.devRef .tc main_v26) = x0 m c :=
  (W2_arr m ρ c 3).trans ((region0 (V1 m ρ) c).trans
    (layer128_congr (w1_arg0 m ρ c) (w1_arg3 m ρ c) (w1_v23 m ρ c)))

/-- Region 1 leaves the first layer's table X·W0. -/
theorem w3_v27 : W3 m ρ c (Proc.devRef .tc main_v27) = p0 m c :=
  (W3_arr m ρ c 3).trans ((region1 (V2 m ρ) c).trans
    (layer128_congr ((at2 m ρ c main_arg0 passes_arg0).trans (w1_arg0 m ρ c))
      ((at2 m ρ c main_arg5 passes_arg5).trans (w1_arg5 m ρ c))
      ((at2 m ρ c main_v24 passes_v24).trans (w1_v24 m ρ c))))

/-- The second stretch propagates it along the edges. -/
theorem w4_v40 : W4 m ρ c (Proc.devRef .tc main_v40) = g0 m c := by
  show StableHlo.after hostOps2 (W3 m ρ c) (Proc.devRef .tc main_v40) = _
  after_results
  rw [w3_v27 m ρ c, at3 m ρ c main_v1 passes_v1, at3 m ρ c main_v2 passes_v2, at3 m ρ c main_v22 passes_v22,
    w1_v1 m ρ c, w1_v2 m ρ c, w1_v22 m ρ c]
  rfl

/-- Region 2 rectifies and adds the anchor. -/
theorem w5_v41 : W5 m ρ c (Proc.devRef .tc main_v41) = h1 m c :=
  (W5_arr m ρ c 2).trans ((region2 (V4 m ρ) c).trans
    (rectified_congr (w4_v40 m ρ c) ((v26_at4 m ρ c).trans (w2_v26 m ρ c))))

/-- Region 3 leaves the second layer's table H1·W1. -/
theorem w6_v42 : W6 m ρ c (Proc.devRef .tc main_v42) = p1 m c :=
  (W6_arr m ρ c 3).trans ((region3 (V5 m ρ) c).trans
    (layer128_congr (w5_v41 m ρ c)
      ((at5 m ρ c main_arg6 passes_arg6 (k4_arg6 m ρ c)).trans (w1_arg6 m ρ c))
      ((at5 m ρ c main_v24 passes_v24 (k4_v24 m ρ c)).trans (w1_v24 m ρ c))))

theorem w7_v55 : W7 m ρ c (Proc.devRef .tc main_v55) = g1 m c := by
  show StableHlo.after hostOps4 (W6 m ρ c) (Proc.devRef .tc main_v55) = _
  after_results
  rw [w6_v42 m ρ c, at6 m ρ c main_v1 passes_v1 (k4_v1 m ρ c), at6 m ρ c main_v2 passes_v2 (k4_v2 m ρ c),
    at6 m ρ c main_v22 passes_v22 (k4_v22 m ρ c), w1_v1 m ρ c, w1_v2 m ρ c, w1_v22 m ρ c]
  rfl

theorem w8_v56 : W8 m ρ c (Proc.devRef .tc main_v56) = h2 m c :=
  (W8_arr m ρ c 2).trans ((region4 (V7 m ρ) c).trans
    (rectified_congr (w7_v55 m ρ c) ((v26_at7 m ρ c).trans (w2_v26 m ρ c))))

theorem w9_v57 : W9 m ρ c (Proc.devRef .tc main_v57) = p2 m c :=
  (W9_arr m ρ c 3).trans ((region5 (V8 m ρ) c).trans
    (layer128_congr (w8_v56 m ρ c)
      ((at8 m ρ c main_arg7 passes_arg7 (k4_arg7 m ρ c) (k7_arg7 m ρ c)).trans (w1_arg7 m ρ c))
      ((at8 m ρ c main_v24 passes_v24 (k4_v24 m ρ c) (k7_v24 m ρ c)).trans (w1_v24 m ρ c))))

theorem w10_v70 : W10 m ρ c (Proc.devRef .tc main_v70) = g2 m c := by
  show StableHlo.after hostOps6 (W9 m ρ c) (Proc.devRef .tc main_v70) = _
  after_results
  rw [w9_v57 m ρ c, at9 m ρ c main_v1 passes_v1 (k4_v1 m ρ c) (k7_v1 m ρ c),
    at9 m ρ c main_v2 passes_v2 (k4_v2 m ρ c) (k7_v2 m ρ c),
    at9 m ρ c main_v22 passes_v22 (k4_v22 m ρ c) (k7_v22 m ρ c), w1_v1 m ρ c, w1_v2 m ρ c, w1_v22 m ρ c]
  rfl

theorem w11_v71 : W11 m ρ c (Proc.devRef .tc main_v71) = h3 m c :=
  (W11_arr m ρ c 2).trans ((region6 (V10 m ρ) c).trans
    (rectified_congr (w10_v70 m ρ c) ((v26_at10 m ρ c).trans (w2_v26 m ρ c))))

theorem w12_v72 : W12 m ρ c (Proc.devRef .tc main_v72) = p3 m c :=
  (W12_arr m ρ c 3).trans ((region7 (V11 m ρ) c).trans
    (layer40_congr (w11_v71 m ρ c)
      ((at11 m ρ c main_arg8 passes_arg8 (k4_arg8 m ρ c) (k7_arg8 m ρ c) (k10_arg8 m ρ c)).trans (w1_arg8 m ρ c))
      ((at11 m ρ c main_v25 passes_v25 (k4_v25 m ρ c) (k7_v25 m ρ c) (k10_v25 m ρ c)).trans (w1_v25 m ρ c))))

theorem w13_v85 : W13 m ρ c (Proc.devRef .tc main_v85) = out m c := by
  show StableHlo.after hostOps8 (W12 m ρ c) (Proc.devRef .tc main_v85) = _
  after_results
  rw [w12_v72 m ρ c, at12 m ρ c main_v1 passes_v1 (k4_v1 m ρ c) (k7_v1 m ρ c) (k10_v1 m ρ c),
    at12 m ρ c main_v2 passes_v2 (k4_v2 m ρ c) (k7_v2 m ρ c) (k10_v2 m ρ c),
    at12 m ρ c main_v22 passes_v22 (k4_v22 m ρ c) (k7_v22 m ρ c) (k10_v22 m ρ c), w1_v1 m ρ c, w1_v2 m ρ c, w1_v22 m ρ c]
  rfl

/-- THE RESULT: the last boundary's result buffer holds the network of the nine launch arrays. -/
theorem result : W13 m ρ c (Proc.devRef .tc main_v85)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (w13_v85 m ρ c).trans rfl

end Cert.KernelIdeal.Fold

end
-- ==== Proof.RefValue.lean ====
/-
  The reference's result is the same network.

  The reference computes, on the host alone, X0 = X·Wt + bt, three layers H ↦ max(agg(H·W), 0) + X0 and a last
  propagation agg(H3·W3), with the same edges, weights, gather and scatter-add as the kernel's program.  Its spelling
  differs from the kernel's in two places only: a layer without bias is a bare product H·W where the kernel's dense
  body adds an all-zero bias row (y + 0 = y for every extended real y, infinite ones included), and the bias vector
  is laid as a row by a broadcast where the kernel's program reshapes it (the same row).  Everything else is the
  same operations applied to the same operands.
-/
import proofs.«131371_j64665027609332_1_alg».proof.Proof.Gen.ReferenceIdeal.Run
import proofs.«131371_j64665027609332_1_alg».proof.Proof.Spec
import Idealize.ShloMosaic.PureOps.Ideal.Laws
import Idealize.ShloMosaic.Lib.ValueIdx

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Facts₀ Cert.ReferenceIdeal.Facts
open Cert.KernelIdeal.Spec (C)

/-! ## The reference's operations, as it spells them -/

def withLoops (a : C S1600000 .i32) : C S1700000 .i32 :=
  concatenate S1700000 0 [⟨S1600000, a⟩, ⟨S100000, iotaInDim S100000 32 0⟩] concatenates_S1600000_S100000_S1700000_d0

def wrapped (v : C S1700000 .i32) : C S1700000x1 .i32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

def column (v : C S1700000 .i32) : C S1700000x1 .i32 :=
  broadcastInDim S1700000x1 ![0] bcast_S1700000_S1700000x1_0 v

def degree (d : C S1700000 .i32) : C S100000 .f32 :=
  Host.scatterAdd (F := Ideal) scatter_S100000_S1700000x1_S1700000_n_0_0_1
    (broadcastInDim S100000 ![] bcast_S_S100000 (constant (F := Ideal) S_ .f32 0x00000000#32)) (column d)
    (broadcastInDim S1700000 ![] bcast_S_S1700000 (constant (F := Ideal) S_ .f32 0x3F800000#32))

def edgeWeight (s d : C S1700000 .i32) : C S1700000 .f32 :=
  Host.rsqrt (F := Ideal) (φ := .f32) (mulf (F := Ideal) (φ := .f32) (Host.gather gather_S100000_S1700000x1_S1700000_n_0_n_n_0_1_1 (degree d) (wrapped s))
    (Host.gather gather_S100000_S1700000x1_S1700000_n_0_n_n_0_1_1 (degree d) (wrapped d)))

def propagate128 (s d : C S1700000 .i32) (w : C S1700000 .f32) (h : C S100000x128 .f32) : C S100000x128 .f32 :=
  Host.scatterAdd (F := Ideal) scatter_S100000x128_S1700000x1_S1700000x128_1_0_0_1
    (broadcastInDim S100000x128 ![] bcast_S_S100000x128 (constant (F := Ideal) S_ .f32 0x00000000#32)) (column d)
    (mulf (F := Ideal) (φ := .f32) (Host.gather gather_S100000x128_S1700000x1_S1700000x128_1_0_n_n_0_1_1128 h (wrapped s))
      (broadcastInDim S1700000x128 ![0, 1] bcast_S1700000x1_S1700000x128_0_1
        (broadcastInDim S1700000x1 ![0] bcast_S1700000_S1700000x1_0 w)))

def propagate40 (s d : C S1700000 .i32) (w : C S1700000 .f32) (h : C S100000x40 .f32) : C S100000x40 .f32 :=
  Host.scatterAdd (F := Ideal) scatter_S100000x40_S1700000x1_S1700000x40_1_0_0_1
    (broadcastInDim S100000x40 ![] bcast_S_S100000x40 (constant (F := Ideal) S_ .f32 0x00000000#32)) (column d)
    (mulf (F := Ideal) (φ := .f32) (Host.gather gather_S100000x40_S1700000x1_S1700000x40_1_0_n_n_0_1_140 h (wrapped s))
      (broadcastInDim S1700000x40 ![0, 1] bcast_S1700000x1_S1700000x40_0_1
        (broadcastInDim S1700000x1 ![0] bcast_S1700000_S1700000x1_0 w)))

/-- X·Wt + bt, the bias vector laid as a row and the row laid down all rows by two broadcasts. -/
def biased (x : C S100000x128 .f32) (wt : C S128x128 .f32) (bt : C S128 .f32) : C S100000x128 .f32 :=
  addf (F := Ideal) (φ := .f32) (Host.dotGeneral (F := Ideal) (φ₁ := .f32) (φ₂ := .f32) dot_S100000x128_S128x128_S100000x128_1_0_0_1_n_n none x wt)
    (broadcastInDim S100000x128 ![0, 1] bcast_S1x128_S100000x128_0_1 (broadcastInDim S1x128 ![1] bcast_S128_S1x128_1 bt))

/-- The bare products H·W, 128 and 40 columns out. -/
def times128 (x : C S100000x128 .f32) (w : C S128x128 .f32) : C S100000x128 .f32 :=
  Host.dotGeneral (F := Ideal) (φ₁ := .f32) (φ₂ := .f32) dot_S100000x128_S128x128_S100000x128_1_0_0_1_n_n none x w
def times40 (x : C S100000x128 .f32) (w : C S128x40 .f32) : C S100000x40 .f32 :=
  Host.dotGeneral (F := Ideal) (φ₁ := .f32) (φ₂ := .f32) dot_S100000x128_S128x40_S100000x40_1_0_0_1_n_n none x w

/-- max(A, 0) + X0. -/
def rect (a x0 : C S100000x128 .f32) : C S100000x128 .f32 :=
  addf (F := Ideal) (φ := .f32) (maximumf (F := Ideal) (φ := .f32) a
    (broadcastInDim S100000x128 ![] bcast_S_S100000x128 (constant (F := Ideal) S_ .f32 0x00000000#32))) x0

/-- The reference's network, composed as its @main composes it. -/
def network (x : C S100000x128 .f32) (src dst : C S1600000 .i32) (wt : C S128x128 .f32) (bt : C S128 .f32)
    (w0 w1 w2 : C S128x128 .f32) (w3 : C S128x40 .f32) : C S100000x40 .f32 :=
  propagate40 (withLoops src) (withLoops dst) (edgeWeight (withLoops src) (withLoops dst))
    (times40 (rect (propagate128 (withLoops src) (withLoops dst) (edgeWeight (withLoops src) (withLoops dst))
      (times128 (rect (propagate128 (withLoops src) (withLoops dst) (edgeWeight (withLoops src) (withLoops dst))
        (times128 (rect (propagate128 (withLoops src) (withLoops dst) (edgeWeight (withLoops src) (withLoops dst))
          (times128 x w0)) (biased x wt bt)) w1)) (biased x wt bt)) w2)) (biased x wt bt)) w3)

/-- The run's composed term IS that composition (the same operations in the same places). -/
theorem res_eq (m : (ℓ : Loc nD τ sig) → Buf (Elt Ideal) ℓ) (c : Dev nD) :
    Value.res_main_v88 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  unfold Value.res_main_v88
  rfl

end Cert.ReferenceIdeal.RefValue

end
-- ==== Proof.Bridge.lean ====
/-
  The reference's spelling of the network and the kernel program's are one function.

  The two differ only where the reference multiplies without a bias (the kernel's dense body adds an all-zero bias
  row: y + 0 = y on the extended reals, at the infinities too, so no finiteness is needed) and where the bias
  vector becomes a row (a reshape on one side, a broadcast on the other: the same row).
-/
import proofs.«131371_j64665027609332_1_alg».proof.Proof.RefValue
import proofs.«131371_j64665027609332_1_alg».proof.Proof.Spec

set_option maxRecDepth 16384

noncomputable section

namespace Cert.Bridge

open Idealize.ShloMosaic Idealize.ShloMosaic.ValueIdx
open Cert.KernelIdeal.Spec (C)
open Cert.KernelIdeal.Blocks (layer128 layer40 rectified)

/-- Adding the all-zero row to every row of a matrix changes nothing: y + 0 = y for every extended real. -/
theorem add_zeroRow {M N : Nat} (h2 : (⟨2, ![1, N]⟩ : Shape).BroadcastsInDim ⟨2, ![M, N]⟩ ![0, 1])
    (h0 : (⟨0, ![]⟩ : Shape).BroadcastsInDim ⟨2, ![1, N]⟩ ![]) (Y : FVec Ideal ⟨2, ![M, N]⟩ .f32) :
    addf Y (broadcastInDim ⟨2, ![M, N]⟩ ![0, 1] h2
      (broadcastInDim ⟨2, ![1, N]⟩ ![] h0 (constant (F := Ideal) ⟨0, ![]⟩ .f32 0x00000000#32))) = Y := by
  funext i
  obtain ⟨r, q, rfl⟩ : ∃ (r : Fin M) (q : Fin N), i = ix2 r q := ⟨i 0, i 1, eq_ix2 i⟩
  have hz : broadcastInDim ⟨2, ![M, N]⟩ ![0, 1] h2
      (broadcastInDim ⟨2, ![1, N]⟩ ![] h0 (constant (F := Ideal) ⟨0, ![]⟩ .f32 0x00000000#32)) (ix2 r q) = (0 : EReal) := by
    refine (broadcastInDim_apply _ h2 _ (ix2 r q) (ix2 (0 : Fin 1) q) fun a => ?_).trans
      ((Cert.HostLayout.scalar_apply _ h0 _).trans ?_)
    · match a with
      | ⟨0, _⟩ => show (0 : Fin 1).val = if (1 : Nat) = 1 then 0 else r.val; rw [if_pos rfl]; rfl
      | ⟨1, _⟩ =>
        show q.val = if N = 1 then 0 else q.val
        split
        · have := q.isLt; omega
        · rfl
    · exact Ideal.ofBits_zero_f32
  rw [addf_apply, hz, add_zero]

theorem withLoops_eq : Cert.ReferenceIdeal.RefValue.withLoops = Cert.KernelIdeal.Spec.withLoops := rfl
theorem edgeWeight_eq : Cert.ReferenceIdeal.RefValue.edgeWeight = Cert.KernelIdeal.Spec.edgeWeight := rfl
theorem propagate128_eq : Cert.ReferenceIdeal.RefValue.propagate128 = Cert.KernelIdeal.Spec.propagate128 := rfl
theorem propagate40_eq : Cert.ReferenceIdeal.RefValue.propagate40 = Cert.KernelIdeal.Spec.propagate40 := rfl
theorem rect_eq : Cert.ReferenceIdeal.RefValue.rect = rectified := rfl

/-- A bare product is the dense layer with the all-zero bias row. -/
theorem times128_eq : Cert.ReferenceIdeal.RefValue.times128
    = fun x w => layer128 x w Cert.KernelIdeal.Spec.zeroRow128 := by
  funext x w
  exact (add_zeroRow Cert.KernelIdeal.Blocks.row128_to_all _ _).symm

theorem times40_eq : Cert.ReferenceIdeal.RefValue.times40
    = fun x w => layer40 x w Cert.KernelIdeal.Spec.zeroRow40 := by
  funext x w
  exact (add_zeroRow Cert.KernelIdeal.Blocks.row40_to_all _ _).symm

/-- The biased product with the bias broadcast into a row is the one with the bias reshaped into a row. -/
theorem biased_eq : Cert.ReferenceIdeal.RefValue.biased
    = fun x wt bt => layer128 x wt (Cert.KernelIdeal.Spec.biasRow bt) := by
  funext x wt bt
  unfold Cert.ReferenceIdeal.RefValue.biased Cert.KernelIdeal.Spec.biasRow
  rw [Cert.BlockRows.reshape_row bt _ Cert.ReferenceIdeal.Facts₀.bcast_S128_S1x128_1]
  rfl

/-- The two networks are one function of the nine arrays. -/
theorem network_eq (x : C Cert.KernelIdeal.S100000x128 .f32) (src dst : C Cert.KernelIdeal.S1600000 .i32)
    (wt : C Cert.KernelIdeal.S128x128 .f32) (bt : C Cert.KernelIdeal.S128 .f32)
    (w0 w1 w2 : C Cert.KernelIdeal.S128x128 .f32) (w3 : C Cert.KernelIdeal.S128x40 .f32) :
    Cert.ReferenceIdeal.RefValue.network x src dst wt bt w0 w1 w2 w3
      = Cert.KernelIdeal.Spec.network x src dst wt bt w0 w1 w2 w3 := by
  unfold Cert.ReferenceIdeal.RefValue.network Cert.KernelIdeal.Spec.network
  rw [withLoops_eq, edgeWeight_eq, propagate128_eq, propagate40_eq, rect_eq, times128_eq, times40_eq, biased_eq]

end Cert.Bridge

end
-- ==== Proof.lean ====
/-
  A residual graph-convolution network on 100000 nodes and 1700000 edges (the given ones and one loop per node):

      X0 = X·Wt + bt,   H(k+1) = max(agg(H(k)·W(k)), 0) + X0  (three times, from H0 = X),   out = agg(H3·W3),

  where agg gathers the rows at the edges' sources, scales each by 1/sqrt(deg(source)·deg(target)) and sums them
  into the edges' targets.  The kernel's program computes the dense products and the rectifier with residual in
  eight regions of twenty row blocks each and leaves the gathers and scatter-adds to host operations; the reference
  is host operations throughout.

  The equality at the ideal instance: each region leaves in its result array ONE whole-array function of the arrays
  it finds (a row of X·W depends on that row of X only, and the rectifier is pointwise), so the program's run is a
  composition of whole-array functions, the same composition as the reference's, up to y + 0 = y (a layer without
  bias is given an all-zero bias row by the kernel) and a reshape against a broadcast of the bias vector.  No law
  used needs finiteness, so the precondition is never opened.
-/
import proofs.«131371_j64665027609332_1_alg».proof.Defs
import proofs.«131371_j64665027609332_1_alg».proof.Proof.Gen.Kernel
import proofs.«131371_j64665027609332_1_alg».proof.Proof.Gen.Kernel.Skeleton
import proofs.«131371_j64665027609332_1_alg».proof.Proof.Gen.Kernel.Launch
import proofs.«131371_j64665027609332_1_alg».proof.Proof.Gen.Kernel.Points
import proofs.«131371_j64665027609332_1_alg».proof.Proof.Gen.Kernel.Frame
import proofs.«131371_j64665027609332_1_alg».proof.Proof.Gen.KernelIdeal
import proofs.«131371_j64665027609332_1_alg».proof.Proof.Gen.KernelIdeal.Skeleton
import proofs.«131371_j64665027609332_1_alg».proof.Proof.Gen.KernelIdeal.Launch
import proofs.«131371_j64665027609332_1_alg».proof.Proof.Gen.KernelIdeal.Points
import proofs.«131371_j64665027609332_1_alg».proof.Proof.Gen.KernelIdeal.Frame
import proofs.«131371_j64665027609332_1_alg».proof.Proof.Gen.ReferenceIdeal
import proofs.«131371_j64665027609332_1_alg».proof.Proof.Gen.ReferenceIdeal.Run
import proofs.«131371_j64665027609332_1_alg».proof.Proof.Gen.Pre_finite_inputs
import proofs.«131371_j64665027609332_1_alg».proof.Proof.KernelRun
import proofs.«131371_j64665027609332_1_alg».proof.Proof.Fold
import proofs.«131371_j64665027609332_1_alg».proof.Proof.RefValue
import proofs.«131371_j64665027609332_1_alg».proof.Proof.Bridge
import Idealize.ShloMosaic.Adequacy
import Idealize.ShloMosaic.Init

noncomputable section

namespace Cert.Proof

open Idealize.ShloMosaic Idealize.SL.Sem

/-- The word-level program runs and keeps its arguments. -/
theorem frame_kernel : Cert.frame_Kernel := fun m ρ _ => Cert.Kernel.Gen.frame m ρ

/-- The idealized program runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the network of the nine arrays in their result. -/
theorem algebraic : Cert.algebraic_KernelIdeal_ReferenceIdeal := by
  intro m ρ m' ρ' _ hagree
  refine ⟨fun c => Cert.KernelIdeal.Spec.network (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Fold.result m ρ c), (h c).2⟩)
      (Cert.KernelIdeal.Run.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.RefValue.res_eq, Cert.Bridge.network_eq, e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
